-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3 : Shape := ⟨3, ![16, 512, 3]⟩
abbrev S8192x7 : Shape := ⟨2, ![8192, 7]⟩
abbrev S8192x3x3 : Shape := ⟨3, ![8192, 3, 3]⟩
abbrev S16x512x1 : Shape := ⟨3, ![16, 512, 1]⟩
abbrev S7x64 : Shape := ⟨2, ![7, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S16x512x3 : S_.BroadcastsInDim S16x512x3 (![] : Fin 0 → Fin S16x512x3.rank)
  reducesTo_S16x512x3_S_d0_1_2 : S16x512x3.ReducesTo [0, 1, 2] S_
  h_S_ : 0 < S_.numel
  bcast_S_S8192x7 : S_.BroadcastsInDim S8192x7 (![] : Fin 0 → Fin S8192x7.rank)
  reducesTo_S8192x7_S_d0_1 : S8192x7.ReducesTo [0, 1] S_
  bcast_S_S8192x3x3 : S_.BroadcastsInDim S8192x3x3 (![] : Fin 0 → Fin S8192x3x3.rank)
  reducesTo_S8192x3x3_S_d0_1_2 : S8192x3x3.ReducesTo [0, 1, 2] S_
  bcast_S_S16x512x1 : S_.BroadcastsInDim S16x512x1 (![] : Fin 0 → Fin S16x512x1.rank)
  reducesTo_S16x512x1_S_d0_1_2 : S16x512x1.ReducesTo [0, 1, 2] S_
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S7x64 .f32) (main_arg5 : FVec F S64 .f32) (main_arg6 : FVec F S64x2 .f32) (main_arg7 : FVec F S2 .f32) (main_v13 : IVec S_ 1) (main_v16 : IVec S16x512x1 1) : IVec S_ 1 :=
  let main_c_5 : IVec S_ 1 := constantI S_ 1 1#1
  let main_v17 : IVec S_ 1 := (fun x v => Host.reduce IntOp.andi x v reducesTo_S16x512x1_S_d0_1_2 h_S_) main_v16 main_c_5
  let main_v18 : IVec S_ 1 := andi main_v13 main_v17
  let main_v19 : FVec F S7x64 .f32 := Host.absf main_arg4
  let main_cst_6 : FVec F S_ .f32 := constant S_ .f32 0x7F800000#32
  let main_v20 : FVec F S7x64 .f32 := broadcastInDim S7x64 ![] bcast_S_S7x64 main_cst_6
  let main_v21 : IVec S7x64 1 := cmpf .olt main_v19 main_v20
  let main_c_7 : IVec S_ 1 := constantI S_ 1 1#1
  let main_v22 : IVec S_ 1 := (fun x v => Host.reduce IntOp.andi x v reducesTo_S7x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg6
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg7 main_v33

def fn {F : FTy → Type} [FloatOps F] (main_arg0 : FVec F S16x512x3 .f32) (main_arg1 : FVec F S8192x7 .f32) (main_arg2 : FVec F S8192x3x3 .f32) (main_arg3 : FVec F S16x512x1 .f32) (main_arg4 : FVec F S7x64 .f32) (main_arg5 : FVec F S64 .f32) (main_arg6 : FVec F S64x2 .f32) (main_arg7 : FVec F S2 .f32) : IVec S_ 1 :=
  let main_v0 : FVec F S16x512x3 .f32 := Host.absf main_arg0
  let main_cst : FVec F S_ .f32 := constant S_ .f32 0x7F800000#32
  let main_v1 : FVec F S16x512x3 .f32 := broadcastInDim S16x512x3 ![] bcast_S_S16x512x3 main_cst
  let main_v2 : IVec S16x512x3 1 := cmpf .olt main_v0 main_v1
  let main_c : IVec S_ 1 := constantI S_ 1 1#1
  let main_v3 : IVec S_ 1 := (fun x v => Host.reduce IntOp.andi x v reducesTo_S16x512x3_S_d0_1_2 h_S_) main_v2 main_c
  let main_v4 : FVec F S8192x7 .f32 := Host.absf main_arg1
  let main_cst_0 : FVec F S_ .f32 := constant S_ .f32 0x7F800000#32
  let main_v5 : FVec F S8192x7 .f32 := broadcastInDim S8192x7 ![] bcast_S_S8192x7 main_cst_0
  let main_v6 : IVec S8192x7 1 := cmpf .olt main_v4 main_v5
  let main_c_1 : IVec S_ 1 := constantI S_ 1 1#1
  let main_v7 : IVec S_ 1 := (fun x v => Host.reduce IntOp.andi x v reducesTo_S8192x7_S_d0_1 h_S_) main_v6 main_c_1
  let main_v8 : IVec S_ 1 := andi main_v3 main_v7
  let main_v9 : FVec F S8192x3x3 .f32 := Host.absf main_arg2
  let main_cst_2 : FVec F S_ .f32 := constant S_ .f32 0x7F800000#32
  let main_v10 : FVec F S8192x3x3 .f32 := broadcastInDim S8192x3x3 ![] bcast_S_S8192x3x3 main_cst_2
  let main_v11 : IVec S8192x3x3 1 := cmpf .olt main_v9 main_v10
  let main_c_3 : IVec S_ 1 := constantI S_ 1 1#1
  let main_v12 : IVec S_ 1 := (fun x v => Host.reduce IntOp.andi x v reducesTo_S8192x3x3_S_d0_1_2 h_S_) main_v11 main_c_3
  let main_v13 : IVec S_ 1 := andi main_v8 main_v12
  let main_v14 : FVec F S16x512x1 .f32 := Host.absf main_arg3
  let main_cst_4 : FVec F S_ .f32 := constant S_ .f32 0x7F800000#32
  let main_v15 : FVec F S16x512x1 .f32 := broadcastInDim S16x512x1 ![] bcast_S_S16x512x1 main_cst_4
  let main_v16 : IVec S16x512x1 1 := cmpf .olt main_v14 main_v15
  fn_part1 (F := F) main_arg4 main_arg5 main_arg6 main_arg7 main_v13 main_v16
-- ==== Kernel.lean ====
abbrev S16x512x3 : Shape := ⟨3, ![16, 512, 3]⟩
abbrev S8192x7 : Shape := ⟨2, ![8192, 7]⟩
abbrev S8192x3x3 : Shape := ⟨3, ![8192, 3, 3]⟩
abbrev S16x512x1 : Shape := ⟨3, ![16, 512, 1]⟩
abbrev S7x64 : Shape := ⟨2, ![7, 64]⟩
abbrev S64 : Shape := ⟨1, ![64]⟩
abbrev S64x2 : Shape := ⟨2, ![64, 2]⟩
abbrev S2 : Shape := ⟨1, ![2]⟩
abbrev S_ : Shape := ⟨0, ![]⟩
abbrev S16x3 : Shape := ⟨2, ![16, 3]⟩
abbrev S16x1x3 : Shape := ⟨3, ![16, 1, 3]⟩
abbrev S16x1 : Shape := ⟨2, ![16, 1]⟩
abbrev S16x1x1 : Shape := ⟨3, ![16, 1, 1]⟩
abbrev S8192x64 : Shape := ⟨2, ![8192, 64]⟩
abbrev S1x64 : Shape := ⟨2, ![1, 64]⟩
abbrev S8192x2 : Shape := ⟨2, ![8192, 2]⟩
abbrev S1x2 : Shape := ⟨2, ![1, 2]⟩
abbrev S16x512x2 : Shape := ⟨3, ![16, 512, 2]⟩
abbrev S16x512x3x3 : Shape := ⟨4, ![16, 512, 3, 3]⟩
abbrev S16x3x512 : Shape := ⟨3, ![16, 3, 512]⟩
abbrev S16x2x512 : Shape := ⟨3, ![16, 2, 512]⟩
abbrev S16x512x8x512 : Shape := ⟨4, ![16, 512, 8, 512]⟩
abbrev S1x128x3 : Shape := ⟨3, ![1, 128, 3]⟩
abbrev S1x3x512 : Shape := ⟨3, ![1, 3, 512]⟩
abbrev S1x128x3x3 : Shape := ⟨4, ![1, 128, 3, 3]⟩
abbrev S1x128x2 : Shape := ⟨3, ![1, 128, 2]⟩
abbrev S1x2x512 : Shape := ⟨3, ![1, 2, 512]⟩
abbrev S1x128x8x512 : Shape := ⟨4, ![1, 128, 8, 512]⟩
abbrev S128x3 : Shape := ⟨2, ![128, 3]⟩
abbrev S3x512 : Shape := ⟨2, ![3, 512]⟩
abbrev S128x3x3 : Shape := ⟨3, ![128, 3, 3]⟩
abbrev S128x2 : Shape := ⟨2, ![128, 2]⟩
abbrev S2x512 : Shape := ⟨2, ![2, 512]⟩
abbrev S128x3x1 : Shape := ⟨3, ![128, 3, 1]⟩
abbrev S128x3x512 : Shape := ⟨3, ![128, 3, 512]⟩
abbrev S128x512 : Shape := ⟨2, ![128, 512]⟩
abbrev S128x1x512 : Shape := ⟨3, ![128, 1, 512]⟩
abbrev S128x1x1 : Shape := ⟨3, ![128, 1, 1]⟩
abbrev S128x2x1 : Shape := ⟨3, ![128, 2, 1]⟩
abbrev S128x2x512 : Shape := ⟨3, ![128, 2, 512]⟩
abbrev S128x8x512 : Shape := ⟨3, ![128, 8, 512]⟩
abbrev S16x512x512x8 : Shape := ⟨4, ![16, 512, 512, 8]⟩

abbrev nBuf : Space → Nat
  | .hbm => 45
  | .vmem => 12
  | .smem => 0
  | _ => 0

abbrev bufTy : (tb : Table) → Fin (tcTables nBuf tb) → BufTy
  | .hbm, ⟨0, _⟩ => ⟨S16x512x3, .f32⟩
  | .hbm, ⟨1, _⟩ => ⟨S8192x7, .f32⟩
  | .hbm, ⟨2, _⟩ => ⟨S8192x3x3, .f32⟩
  | .hbm, ⟨3, _⟩ => ⟨S16x512x1, .f32⟩
  | .hbm, ⟨4, _⟩ => ⟨S7x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S16x512x3, .f32⟩
  | .hbm, ⟨9, _⟩ => ⟨S16x512x3, .f32⟩
  | .hbm, ⟨10, _⟩ => ⟨S_, .f32⟩
  | .hbm, ⟨11, _⟩ => ⟨S16x3, .f32⟩
  | .hbm, ⟨12, _⟩ => ⟨S16x1x3, .f32⟩
  | .hbm, ⟨13, _⟩ => ⟨S_, .f32⟩
  | .hbm, ⟨14, _⟩ => ⟨S16x1, .f32⟩
  | .hbm, ⟨15, _⟩ => ⟨S16x1x1, .f32⟩
  | .hbm, ⟨16, _⟩ => ⟨S16x1x3, .f32⟩
  | .hbm, ⟨17, _⟩ => ⟨S16x1x3, .f32⟩
  | .hbm, ⟨18, _⟩ => ⟨S16x512x3, .f32⟩
  | .hbm, ⟨19, _⟩ => ⟨S16x512x3, .f32⟩
  | .hbm, ⟨20, _⟩ => ⟨S16x512x3, .f32⟩
  | .hbm, ⟨21, _⟩ => ⟨S16x512x3, .f32⟩
  | .hbm, ⟨22, _⟩ => ⟨S8192x64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x2, .f32⟩
  | .hbm, ⟨36, _⟩ => ⟨S1x2, .f32⟩
  | .hbm, ⟨37, _⟩ => ⟨S8192x2, .f32⟩
  | .hbm, ⟨38, _⟩ => ⟨S8192x2, .f32⟩
  | .hbm, ⟨39, _⟩ => ⟨S16x512x2, .f32⟩
  | .hbm, ⟨40, _⟩ => ⟨S16x512x3x3, .f32⟩
  | .hbm, ⟨41, _⟩ => ⟨S16x3x512, .f32⟩
  | .hbm, ⟨42, _⟩ => ⟨S16x2x512, .f32⟩
  | .hbm, ⟨43, _⟩ => ⟨S16x512x8x512, .f32⟩
  | .hbm, ⟨44, _⟩ => ⟨S16x512x512x8, .f32⟩
  | .local _ .vmem, ⟨0, _⟩ => ⟨S1x128x3, .f32⟩
  | .local _ .vmem, ⟨1, _⟩ => ⟨S1x128x3, .f32⟩
  | .local _ .vmem, ⟨2, _⟩ => ⟨S1x3x512, .f32⟩
  | .local _ .vmem, ⟨3, _⟩ => ⟨S1x3x512, .f32⟩
  | .local _ .vmem, ⟨4, _⟩ => ⟨S1x128x3x3, .f32⟩
  | .local _ .vmem, ⟨5, _⟩ => ⟨S1x128x3x3, .f32⟩
  | .local _ .vmem, ⟨6, _⟩ => ⟨S1x128x2, .f32⟩
  | .local _ .vmem, ⟨7, _⟩ => ⟨S1x128x2, .f32⟩
  | .local _ .vmem, ⟨8, _⟩ => ⟨S1x2x512, .f32⟩
  | .local _ .vmem, ⟨9, _⟩ => ⟨S1x2x512, .f32⟩
  | .local _ .vmem, ⟨10, _⟩ => ⟨S1x128x8x512, .f32⟩
  | .local _ .vmem, ⟨11, _⟩ => ⟨S1x128x8x512, .f32⟩
  | _, _ => ⟨S16x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S16x512x1_S16x512x3_0_1_2 : S16x512x1.BroadcastsInDim S16x512x3 (![0, 1, 2] : Fin 3 → Fin S16x512x3.rank)
  reducesTo_S16x512x3_S16x3_d1 : S16x512x3.ReducesTo [1] S16x3
  h_S_ : 0 < S_.numel
  bcast_S16x3_S16x1x3_0_2 : S16x3.BroadcastsInDim S16x1x3 (![0, 2] : Fin 2 → Fin S16x1x3.rank)
  reducesTo_S16x512x1_S16x1_d1 : S16x512x1.ReducesTo [1] S16x1
  bcast_S16x1_S16x1x1_0_2 : S16x1.BroadcastsInDim S16x1x1 (![0, 2] : Fin 2 → Fin S16x1x1.rank)
  bcast_S16x1x1_S16x1x3_0_1_2 : S16x1x1.BroadcastsInDim S16x1x3 (![0, 1, 2] : Fin 3 → Fin S16x1x3.rank)
  bcast_S16x1x3_S16x512x3_0_1_2 : S16x1x3.BroadcastsInDim S16x512x3 (![0, 1, 2] : Fin 3 → Fin S16x512x3.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  shapeCasts_S8192x2_S16x512x2 : S8192x2.ShapeCasts S16x512x2
  shapeCasts_S8192x3x3_S16x512x3x3 : S8192x3x3.ShapeCasts S16x512x3x3
  transposes_S16x512x3_S16x3x512_0_2_1 : S16x512x3.Transposes [0, 2, 1] S16x3x512
  transposes_S16x512x2_S16x2x512_0_2_1 : S16x512x2.Transposes [0, 2, 1] S16x2x512
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x128x3x3_S1x128x3x3_0_0_0_0 : ∀ a, (![0, 0, 0, 0] : Fin 4 → Nat) a + S1x128x3x3.size a ≤ S1x128x3x3.size a
  h_S1x128x3x3 : 0 < S1x128x3x3.numel
  shapeCasts_S1x128x3x3_S128x3x3 : S1x128x3x3.ShapeCasts S128x3x3
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  shapeCasts_S128x3_S128x3x1 : S128x3.ShapeCasts S128x3x1
  shapeCasts_S3x512_S1x3x512 : S3x512.ShapeCasts S1x3x512
  broadcasts_S128x3x1_S128x3x512 : S128x3x1.Broadcasts S128x3x512
  broadcasts_S1x3x512_S128x3x512 : S1x3x512.Broadcasts S128x3x512
  reduces_S128x3x512_S128x512 : S128x3x512.Reduces [1] S128x512
  shapeCasts_S128x512_S128x1x512 : S128x512.ShapeCasts S128x1x512
  broadcasts_S128x1x512_S128x3x512 : S128x1x512.Broadcasts S128x3x512
  slices_S128x3x3_o0_0_0_S128x1x1 : S128x3x3.Slices ![0, 0, 0] S128x1x1
  slices_S128x3x512_o0_0_0_S128x1x512 : S128x3x512.Slices ![0, 0, 0] S128x1x512
  broadcasts_S128x1x1_S128x1x512 : S128x1x1.Broadcasts S128x1x512
  slices_S128x3x3_o0_0_1_S128x1x1 : S128x3x3.Slices ![0, 0, 1] S128x1x1
  slices_S128x3x512_o0_1_0_S128x1x512 : S128x3x512.Slices ![0, 1, 0] S128x1x512
  slices_S128x3x3_o0_0_2_S128x1x1 : S128x3x3.Slices ![0, 0, 2] S128x1x1
  slices_S128x3x512_o0_2_0_S128x1x512 : S128x3x512.Slices ![0, 2, 0] S128x1x512
  slices_S128x3x3_o0_1_0_S128x1x1 : S128x3x3.Slices ![0, 1, 0] S128x1x1
  slices_S128x3x3_o0_1_1_S128x1x1 : S128x3x3.Slices ![0, 1, 1] S128x1x1
  slices_S128x3x3_o0_1_2_S128x1x1 : S128x3x3.Slices ![0, 1, 2] S128x1x1
  slices_S128x3x3_o0_2_0_S128x1x1 : S128x3x3.Slices ![0, 2, 0] S128x1x1
  slices_S128x3x3_o0_2_1_S128x1x1 : S128x3x3.Slices ![0, 2, 1] S128x1x1
  slices_S128x3x3_o0_2_2_S128x1x1 : S128x3x3.Slices ![0, 2, 2] S128x1x1
  concatenates_S128x1x512_S128x1x512_S128x1x512_S128x3x512_d1 : Shape.Concatenates [S128x1x512, S128x1x512, S128x1x512] S128x3x512 1
  shapeCasts_S128x2_S128x2x1 : S128x2.ShapeCasts S128x2x1
  shapeCasts_S128x2x1_S128x2x1 : S128x2x1.ShapeCasts S128x2x1
  broadcasts_S128x2x1_S128x2x512 : S128x2x1.Broadcasts S128x2x512
  shapeCasts_S2x512_S1x2x512 : S2x512.ShapeCasts S1x2x512
  shapeCasts_S1x2x512_S1x2x512 : S1x2x512.ShapeCasts S1x2x512
  broadcasts_S1x2x512_S128x2x512 : S1x2x512.Broadcasts S128x2x512
  concatenates_S128x1x512_S128x3x512_S128x2x512_S128x2x512_S128x8x512_d1 : Shape.Concatenates [S128x1x512, S128x3x512, S128x2x512, S128x2x512] S128x8x512 1
  inb_S1x128x8x512_S1x128x8x512_0_0_0_0 : ∀ a, (![0, 0, 0, 0] : Fin 4 → Nat) a + S1x128x8x512.size a ≤ S1x128x8x512.size a
  h_S1x128x8x512 : 0 < S1x128x8x512.numel
  shapeCasts_S1x128x8x512_S128x8x512 : S1x128x8x512.ShapeCasts S128x8x512
  shapeCasts_S128x8x512_S1x128x8x512 : S128x8x512.ShapeCasts S1x128x8x512
  transposes_S16x512x8x512_S16x512x512x8_0_1_3_2 : S16x512x8x512.Transposes [0, 1, 3, 2] S16x512x512x8
  dot_S8192x7_S7x64_S8192x64_1_0_0_1_n_n_wf : DotDims.WF S8192x7 S7x64 S8192x64 [1] [0] [0] [1] [] []
  dot_S8192x64_S64x2_S8192x2_1_0_0_1_n_n_wf : DotDims.WF S8192x64 S64x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S16x512x3.size a
  hwx0_0 : ∀ i : grid0.Coords, EltTy.bits .f32 = 32 ∨ (Rect.block (s := S16x512x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x512.size a
  hwx0_1 : ∀ i : grid0.Coords, EltTy.bits .f32 = 32 ∨ (Rect.block (s := S16x3x512) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3x3.size a ≤ S16x512x3x3.size a
  hwx0_2 : ∀ i : grid0.Coords, EltTy.bits .f32 = 32 ∨ (Rect.block (s := S16x512x3x3) S1x128x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2.size a ≤ S16x512x2.size a
  hwx0_3 : ∀ i : grid0.Coords, EltTy.bits .f32 = 32 ∨ (Rect.block (s := S16x512x2) S1x128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x512.size a ≤ S16x2x512.size a
  hwx0_4 : ∀ i : grid0.Coords, EltTy.bits .f32 = 32 ∨ (Rect.block (s := S16x2x512) S1x2x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x8x512.size a ≤ S16x512x8x512.size a
  hwx0_5 : ∀ i : grid0.Coords, EltTy.bits .f32 = 32 ∨ (Rect.block (s := S16x512x8x512) S1x128x8x512.size (cc0_transform_5 i) (hinb0_5 i)).WholeWords (EltTy.packing .f32)

variable [Facts₀]

def dot_S8192x7_S7x64_S8192x64_1_0_0_1_n_n : DotDims S8192x7 S7x64 S8192x64 where
  lhsContracting := [1]
  rhsContracting := [0]
  lhsNonContracting := [0]
  rhsNonContracting := [1]
  lhsBatch := []
  rhsBatch := []
  wf := dot_S8192x7_S7x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

abbrev win0_0 : Pipeline.Window sig grid0 :=
  Pipeline.Window.ofSpec (Memref.whole main_v11) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x2x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128x8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x3 : Shape := ⟨3, ![16, 512, 3]⟩
abbrev S8192x7 : Shape := ⟨2, ![8192, 7]⟩
abbrev S8192x3x3 : Shape := ⟨3, ![8192, 3, 3]⟩
abbrev S16x512x1 : Shape := ⟨3, ![16, 512, 1]⟩
abbrev S7x64 : Shape := ⟨2, ![7, 64]⟩
abbrev S64 : Shape := ⟨1, ![64]⟩
abbrev S64x2 : Shape := ⟨2, ![64, 2]⟩
abbrev S2 : Shape := ⟨1, ![2]⟩
abbrev S_ : Shape := ⟨0, ![]⟩
abbrev S16x3 : Shape := ⟨2, ![16, 3]⟩
abbrev S16x1x3 : Shape := ⟨3, ![16, 1, 3]⟩
abbrev S16x1 : Shape := ⟨2, ![16, 1]⟩
abbrev S16x1x1 : Shape := ⟨3, ![16, 1, 1]⟩
abbrev S16x512x1x3 : Shape := ⟨4, ![16, 512, 1, 3]⟩
abbrev S16x1x512x3 : Shape := ⟨4, ![16, 1, 512, 3]⟩
abbrev S16x512x512x3 : Shape := ⟨4, ![16, 512, 512, 3]⟩
abbrev S16x512x512 : Shape := ⟨3, ![16, 512, 512]⟩
abbrev S16x512x512x1 : Shape := ⟨4, ![16, 512, 512, 1]⟩
abbrev S16x512x3x3 : Shape := ⟨4, ![16, 512, 3, 3]⟩
abbrev S8192x64 : Shape := ⟨2, ![8192, 64]⟩
abbrev S1x64 : Shape := ⟨2, ![1, 64]⟩
abbrev S8192x2 : Shape := ⟨2, ![8192, 2]⟩
abbrev S1x2 : Shape := ⟨2, ![1, 2]⟩
abbrev S16x512x2 : Shape := ⟨3, ![16, 512, 2]⟩
abbrev S16x512x1x2 : Shape := ⟨4, ![16, 512, 1, 2]⟩
abbrev S16x512x512x2 : Shape := ⟨4, ![16, 512, 512, 2]⟩
abbrev S16x1x512x2 : Shape := ⟨4, ![16, 1, 512, 2]⟩
abbrev S16x512x512x8 : Shape := ⟨4, ![16, 512, 512, 8]⟩

abbrev nBuf : Space → Nat
  | .hbm => 65
  | .vmem => 0
  | .smem => 0
  | _ => 0

abbrev bufTy : (tb : Table) → Fin (tcTables nBuf tb) → BufTy
  | .hbm, ⟨0, _⟩ => ⟨S16x512x3, .f32⟩
  | .hbm, ⟨1, _⟩ => ⟨S8192x7, .f32⟩
  | .hbm, ⟨2, _⟩ => ⟨S8192x3x3, .f32⟩
  | .hbm, ⟨3, _⟩ => ⟨S16x512x1, .f32⟩
  | .hbm, ⟨4, _⟩ => ⟨S7x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S16x512x3, .f32⟩
  | .hbm, ⟨9, _⟩ => ⟨S16x512x3, .f32⟩
  | .hbm, ⟨10, _⟩ => ⟨S_, .f32⟩
  | .hbm, ⟨11, _⟩ => ⟨S16x3, .f32⟩
  | .hbm, ⟨12, _⟩ => ⟨S16x1x3, .f32⟩
  | .hbm, ⟨13, _⟩ => ⟨S_, .f32⟩
  | .hbm, ⟨14, _⟩ => ⟨S16x1, .f32⟩
  | .hbm, ⟨15, _⟩ => ⟨S16x1x1, .f32⟩
  | .hbm, ⟨16, _⟩ => ⟨S16x1x3, .f32⟩
  | .hbm, ⟨17, _⟩ => ⟨S16x1x3, .f32⟩
  | .hbm, ⟨18, _⟩ => ⟨S16x512x3, .f32⟩
  | .hbm, ⟨19, _⟩ => ⟨S16x512x3, .f32⟩
  | .hbm, ⟨20, _⟩ => ⟨S16x512x3, .f32⟩
  | .hbm, ⟨21, _⟩ => ⟨S16x512x3, .f32⟩
  | .hbm, ⟨22, _⟩ => ⟨S16x512x1x3, .f32⟩
  | .hbm, ⟨23, _⟩ => ⟨S16x1x512x3, .f32⟩
  | .hbm, ⟨24, _⟩ => ⟨S16x512x512x3, .f32⟩
  | .hbm, ⟨25, _⟩ => ⟨S16x512x512x3, .f32⟩
  | .hbm, ⟨26, _⟩ => ⟨S16x512x512x3, .f32⟩
  | .hbm, ⟨27, _⟩ => ⟨S16x512x512x3, .f32⟩
  | .hbm, ⟨28, _⟩ => ⟨S_, .f32⟩
  | .hbm, ⟨29, _⟩ => ⟨S16x512x512, .f32⟩
  | .hbm, ⟨30, _⟩ => ⟨S16x512x512x1, .f32⟩
  | .hbm, ⟨31, _⟩ => ⟨S_, .f32⟩
  | .hbm, ⟨32, _⟩ => ⟨S16x512x512x1, .f32⟩
  | .hbm, ⟨33, _⟩ => ⟨S16x512x512x1, .f32⟩
  | .hbm, ⟨34, _⟩ => ⟨S16x512x512x1, .f32⟩
  | .hbm, ⟨35, _⟩ => ⟨S_, .f32⟩
  | .hbm, ⟨36, _⟩ => ⟨S16x512x512x1, .f32⟩
  | .hbm, ⟨37, _⟩ => ⟨S16x512x512x1, .f32⟩
  | .hbm, ⟨38, _⟩ => ⟨S16x512x512x3, .f32⟩
  | .hbm, ⟨39, _⟩ => ⟨S16x512x512x3, .f32⟩
  | .hbm, ⟨40, _⟩ => ⟨S16x512x3x3, .f32⟩
  | .hbm, ⟨41, _⟩ => ⟨S16x512x512x3, .f32⟩
  | .hbm, ⟨42, _⟩ => ⟨S8192x64, .f32⟩
  | .hbm, ⟨43, _⟩ => ⟨S1x64, .f32⟩
  | .hbm, ⟨44, _⟩ => ⟨S8192x64, .f32⟩
  | .hbm, ⟨45, _⟩ => ⟨S8192x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S_, .f32⟩
  | .hbm, ⟨52, _⟩ => ⟨S8192x64, .f32⟩
  | .hbm, ⟨53, _⟩ => ⟨S8192x64, .f32⟩
  | .hbm, ⟨54, _⟩ => ⟨S8192x64, .f32⟩
  | .hbm, ⟨55, _⟩ => ⟨S8192x2, .f32⟩
  | .hbm, ⟨56, _⟩ => ⟨S1x2, .f32⟩
  | .hbm, ⟨57, _⟩ => ⟨S8192x2, .f32⟩
  | .hbm, ⟨58, _⟩ => ⟨S8192x2, .f32⟩
  | .hbm, ⟨59, _⟩ => ⟨S16x512x2, .f32⟩
  | .hbm, ⟨60, _⟩ => ⟨S16x512x1x2, .f32⟩
  | .hbm, ⟨61, _⟩ => ⟨S16x512x512x2, .f32⟩
  | .hbm, ⟨62, _⟩ => ⟨S16x1x512x2, .f32⟩
  | .hbm, ⟨63, _⟩ => ⟨S16x512x512x2, .f32⟩
  | .hbm, ⟨64, _⟩ => ⟨S16x512x512x8, .f32⟩
  | _, _ => ⟨S16x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S16x512x1_S16x512x3_0_1_2 : S16x512x1.BroadcastsInDim S16x512x3 (![0, 1, 2] : Fin 3 → Fin S16x512x3.rank)
  reducesTo_S16x512x3_S16x3_d1 : S16x512x3.ReducesTo [1] S16x3
  h_S_ : 0 < S_.numel
  bcast_S16x3_S16x1x3_0_2 : S16x3.BroadcastsInDim S16x1x3 (![0, 2] : Fin 2 → Fin S16x1x3.rank)
  reducesTo_S16x512x1_S16x1_d1 : S16x512x1.ReducesTo [1] S16x1
  bcast_S16x1_S16x1x1_0_2 : S16x1.BroadcastsInDim S16x1x1 (![0, 2] : Fin 2 → Fin S16x1x1.rank)
  bcast_S16x1x1_S16x1x3_0_1_2 : S16x1x1.BroadcastsInDim S16x1x3 (![0, 1, 2] : Fin 3 → Fin S16x1x3.rank)
  bcast_S16x1x3_S16x512x3_0_1_2 : S16x1x3.BroadcastsInDim S16x512x3 (![0, 1, 2] : Fin 3 → Fin S16x512x3.rank)
  bcast_S16x512x3_S16x512x1x3_0_1_3 : S16x512x3.BroadcastsInDim S16x512x1x3 (![0, 1, 3] : Fin 3 → Fin S16x512x1x3.rank)
  bcast_S16x512x3_S16x1x512x3_0_2_3 : S16x512x3.BroadcastsInDim S16x1x512x3 (![0, 2, 3] : Fin 3 → Fin S16x1x512x3.rank)
  bcast_S16x512x1x3_S16x512x512x3_0_1_2_3 : S16x512x1x3.BroadcastsInDim S16x512x512x3 (![0, 1, 2, 3] : Fin 4 → Fin S16x512x512x3.rank)
  bcast_S16x1x512x3_S16x512x512x3_0_1_2_3 : S16x1x512x3.BroadcastsInDim S16x512x512x3 (![0, 1, 2, 3] : Fin 4 → Fin S16x512x512x3.rank)
  reducesTo_S16x512x512x3_S16x512x512_d3 : S16x512x512x3.ReducesTo [3] S16x512x512
  bcast_S16x512x512_S16x512x512x1_0_1_2 : S16x512x512.BroadcastsInDim S16x512x512x1 (![0, 1, 2] : Fin 3 → Fin S16x512x512x1.rank)
  bcast_S_S16x512x512x1 : S_.BroadcastsInDim S16x512x512x1 (![] : Fin 0 → Fin S16x512x512x1.rank)
  bcast_S16x512x512x1_S16x512x512x3_0_1_2_3 : S16x512x512x1.BroadcastsInDim S16x512x512x3 (![0, 1, 2, 3] : Fin 4 → Fin S16x512x512x3.rank)
  shapeCasts_S8192x3x3_S16x512x3x3 : S8192x3x3.ShapeCasts S16x512x3x3
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  shapeCasts_S8192x2_S16x512x2 : S8192x2.ShapeCasts S16x512x2
  bcast_S16x512x2_S16x512x1x2_0_1_3 : S16x512x2.BroadcastsInDim S16x512x1x2 (![0, 1, 3] : Fin 3 → Fin S16x512x1x2.rank)
  bcast_S16x512x1x2_S16x512x512x2_0_1_2_3 : S16x512x1x2.BroadcastsInDim S16x512x512x2 (![0, 1, 2, 3] : Fin 4 → Fin S16x512x512x2.rank)
  bcast_S16x512x2_S16x1x512x2_0_2_3 : S16x512x2.BroadcastsInDim S16x1x512x2 (![0, 2, 3] : Fin 3 → Fin S16x1x512x2.rank)
  bcast_S16x1x512x2_S16x512x512x2_0_1_2_3 : S16x1x512x2.BroadcastsInDim S16x512x512x2 (![0, 1, 2, 3] : Fin 4 → Fin S16x512x512x2.rank)
  concatenates_S16x512x512x1_S16x512x512x3_S16x512x512x2_S16x512x512x2_S16x512x512x8_d3 : Shape.Concatenates [S16x512x512x1, S16x512x512x3, S16x512x512x2, S16x512x512x2] S16x512x512x8 3
  dot_S16x512x512x3_S16x512x3x3_S16x512x512x3_3_3_2_2_01_01_wf : DotDims.WF S16x512x512x3 S16x512x3x3 S16x512x512x3 [3] [3] [2] [2] [0, 1] [0, 1]
  dot_S8192x7_S7x64_S8192x64_1_0_0_1_n_n_wf : DotDims.WF S8192x7 S7x64 S8192x64 [1] [0] [0] [1] [] []
  dot_S8192x64_S64x2_S8192x2_1_0_0_1_n_n_wf : DotDims.WF S8192x64 S64x2 S8192x2 [1] [0] [0] [1] [] []

variable [Facts₀]

def dot_S16x512x512x3_S16x512x3x3_S16x512x512x3_3_3_2_2_01_01 : DotDims S16x512x512x3 S16x512x3x3 S16x512x512x3 where
  lhsContracting := [3]
  rhsContracting := [3]
  lhsNonContracting := [2]
  rhsNonContracting := [2]
  lhsBatch := [0, 1]
  rhsBatch := [0, 1]
  wf := dot_S16x512x512x3_S16x512x3x3_S16x512x512x3_3_3_2_2_01_01_wf
def dot_S8192x7_S7x64_S8192x64_1_0_0_1_n_n : DotDims S8192x7 S7x64 S8192x64 where
  lhsContracting := [1]
  rhsContracting := [0]
  lhsNonContracting := [0]
  rhsNonContracting := [1]
  lhsBatch := []
  rhsBatch := []
  wf := dot_S8192x7_S7x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

class Facts : Prop extends Facts₀ where

variable [Facts]
-- ==== Proof.Spec.lean ====
/-
  The edge features of a fully connected point cloud, as one function of three arrays.

  For a batch b and two nodes i, j of it, with centred coordinates xc[b, ·, 0..2], a 3×3 frame pose[b, i, ·, ·] at the
  row node and a two-entry embedding he[b, ·, 0..1] of every node, the eight features of the edge (i, j) are

    feature 0      the squared distance  r = ∑ₖ dₖ · dₖ   of the difference d = xc[b, i, ·] − xc[b, j, ·],
    features 1–3   the difference scaled by 1 / (√(r + ε) + 1) and taken through the frame: for m = 0, 1, 2
                   (pose[m, 0] · d₀ / den + pose[m, 1] · d₁ / den) + pose[m, 2] · d₂ / den,
    features 4, 5  the embedding of the row node i,
    features 6, 7  the embedding of the column node j.

  Everything is stated on the extended reals with the operations' exact meanings; ε and 1 are the two float words the
  programs print, kept as words. Two layouts of the same table are named: [b, i, j, f] and [b, i, f, j].
-/
import Idealize.ShloMosaic.PureOps.Ideal
import Idealize.ShloMosaic.Lib.ValueIdx

noncomputable section

namespace Cert.EdgeSpec

open Idealize.ShloMosaic Idealize.ShloMosaic.ValueIdx

/-- ε, the float word both programs add under the square root. -/
abbrev eps : EReal := Ideal.ofBits .f32 0x322BCC77#32
/-- 1, the float word both programs add to the root. -/
abbrev one : EReal := Ideal.ofBits .f32 0x3F800000#32

/-- The squared length of a difference vector. -/
def sqDist (d : Fin 3 → EReal) : EReal := ∑ k : Fin 3, d k * d k

/-- The normaliser √(r + ε) + 1 of a difference vector. -/
def den (d : Fin 3 → EReal) : EReal := Ideal.sqrt (sqDist d + eps) + one

/-- One row p of a frame applied to the normalised difference, summed left to right. -/
def through (p : Fin 3 → EReal) (d : Fin 3 → EReal) : EReal :=
  (p 0 * Ideal.div (d 0) (den d) + p 1 * Ideal.div (d 1) (den d)) + p 2 * Ideal.div (d 2) (den d)

/-- The eight features of one edge from its difference vector d, the row node's frame P and the two nodes'
    embeddings hi, hj. -/
def feat (d : Fin 3 → EReal) (P : Fin 3 → Fin 3 → EReal) (hi hj : Fin 2 → EReal) : Fin 8 → EReal
  | ⟨0, _⟩ => sqDist d
  | ⟨1, _⟩ => through (P 0) d
  | ⟨2, _⟩ => through (P 1) d
  | ⟨3, _⟩ => through (P 2) d
  | ⟨4, _⟩ => hi 0
  | ⟨5, _⟩ => hi 1
  | ⟨6, _⟩ => hj 0
  | ⟨7, _⟩ => hj 1
  | ⟨n + 8, h⟩ => absurd h (by omega)

/-- Feature f of the edge (i, j) of batch b, from the centred coordinates, the frames and the embeddings. -/
def edge (xc : (⟨3, ![16, 512, 3]⟩ : Shape).Idx → EReal) (P : (⟨4, ![16, 512, 3, 3]⟩ : Shape).Idx → EReal)
    (he : (⟨3, ![16, 512, 2]⟩ : Shape).Idx → EReal) (b : Fin 16) (i j : Fin 512) (f : Fin 8) : EReal :=
  feat (fun k => xc (ix3 b i k) - xc (ix3 b j k)) (fun m k => P (ix4 b i m k))
    (fun u => he (ix3 b i u)) (fun u => he (ix3 b j u)) f

/-- The table laid out [b, i, j, f]. -/
def table (xc : (⟨3, ![16, 512, 3]⟩ : Shape).Idx → EReal) (P : (⟨4, ![16, 512, 3, 3]⟩ : Shape).Idx → EReal)
    (he : (⟨3, ![16, 512, 2]⟩ : Shape).Idx → EReal) : (⟨4, ![16, 512, 512, 8]⟩ : Shape).Idx → EReal :=
  fun q => edge xc P he (q 0) (q 1) (q 2) (q 3)

/-- The same table laid out [b, i, f, j], the node j along the last axis. -/
def tableT (xc : (⟨3, ![16, 512, 3]⟩ : Shape).Idx → EReal) (P : (⟨4, ![16, 512, 3, 3]⟩ : Shape).Idx → EReal)
    (he : (⟨3, ![16, 512, 2]⟩ : Shape).Idx → EReal) : (⟨4, ![16, 512, 8, 512]⟩ : Shape).Idx → EReal :=
  fun q => edge xc P he (q 0) (q 1) (q 3) (q 2)

theorem table_apply (xc : (⟨3, ![16, 512, 3]⟩ : Shape).Idx → EReal) (P : (⟨4, ![16, 512, 3, 3]⟩ : Shape).Idx → EReal)
    (he : (⟨3, ![16, 512, 2]⟩ : Shape).Idx → EReal) (b : Fin 16) (i j : Fin 512) (f : Fin 8) :
    table xc P he (ix4 b i j f) = edge xc P he b i j f := rfl

theorem tableT_apply (xc : (⟨3, ![16, 512, 3]⟩ : Shape).Idx → EReal) (P : (⟨4, ![16, 512, 3, 3]⟩ : Shape).Idx → EReal)
    (he : (⟨3, ![16, 512, 2]⟩ : Shape).Idx → EReal) (b : Fin 16) (i : Fin 512) (f : Fin 8) (j : Fin 512) :
    tableT xc P he (ix4 b i f j) = edge xc P he b i j f := rfl

end Cert.EdgeSpec

end
-- ==== Proof.HostPrefix.lean ====
/-
  What the region finds in the five arrays it stages, in terms of the program's arguments.

  The lines before the region compute the centred coordinates xc, the embedding he, the frames reshaped to
  [16, 512, 3, 3], and the transposes of xc and he that put the node along the last axis. Each of those lines is the same
  operation, on the same operands, as a line of the reference program; so the contents are named here by the reference's
  own stages, and the two transposes by the arrays they transpose.
-/
import proofs.«158982_j83279415869557_2_alg».proof.Proof.Gen.KernelIdeal.Frame
import proofs.«158982_j83279415869557_2_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array of window 1 is the centred coordinates with the node axis last. -/
theorem xcT_eq (c : Dev nD) :
    (V m c main_v23 : S16x3x512.Idx → EReal)
      = transpose S16x3x512 [0, 2, 1] (V m c main_v11 : S16x512x3.Idx → EReal) transposes_S16x512x3_S16x3x512_0_2_1 := by
  dsimp only [V, V0]
  simp only [hostOps0, hostOps0_1, hostOps0_2, List.flatten_cons, List.flatten_nil, List.append_nil, List.cons_append,
    List.nil_append]
  after_results_simp

/-- The array of window 4 is the embedding with the node axis last. -/
theorem heT_eq (c : Dev nD) :
    (V m c main_v24 : S16x2x512.Idx → EReal)
      = transpose S16x2x512 [0, 2, 1] (V m c main_v21 : S16x512x2.Idx → EReal) transposes_S16x512x2_S16x2x512_0_2_1 := by
  dsimp only [V, V0]
  simp only [hostOps0, hostOps0_1, hostOps0_2, List.flatten_cons, List.flatten_nil, List.append_nil, List.cons_append,
    List.nil_append]
  after_results_simp

/-- The array of window 0 is the reference's centred coordinates of the same arguments. -/
theorem xc_eq (c : Dev nD) :
    (V m c main_v11 : S16x512x3.Idx → EReal)
      = Cert.ReferenceIdeal.Read.val_main_v11 (F := Ideal) (m ((c : Thread nD τ).loc main_arg0))
          (m ((c : Thread nD τ).loc main_arg3)) := by
  dsimp only [V, V0]
  simp only [hostOps0, hostOps0_1, hostOps0_2, List.flatten_cons, List.flatten_nil, List.append_nil, List.cons_append,
    List.nil_append]
  after_results_simp
  rfl

/-- The array of window 2 is the reference's reshaped frames of the same argument. -/
theorem pose_eq (c : Dev nD) :
    (V m c main_v22 : S16x512x3x3.Idx → EReal)
      = Cert.ReferenceIdeal.Read.val_main_v27 (F := Ideal) (m ((c : Thread nD τ).loc main_arg2)) := by
  dsimp only [V, V0]
  simp only [hostOps0, hostOps0_1, hostOps0_2, List.flatten_cons, List.flatten_nil, List.append_nil, List.cons_append,
    List.nil_append]
  after_results_simp
  rfl

/-- The array of window 3 is the reference's embedding of the same arguments. -/
theorem he_eq (c : Dev nD) :
    (V m c main_v21 : S16x512x2.Idx → EReal)
      = Cert.ReferenceIdeal.Read.val_main_v38 (F := Ideal) (m ((c : Thread nD τ).loc main_arg1))
          (m ((c : Thread nD τ).loc main_arg4)) (m ((c : Thread nD τ).loc main_arg5))
          (m ((c : Thread nD τ).loc main_arg6)) (m ((c : Thread nD τ).loc main_arg7)) := by
  dsimp only [V, V0]
  simp only [hostOps0, hostOps0_1, hostOps0_2, List.flatten_cons, List.flatten_nil, List.append_nil, List.cons_append,
    List.nil_append]
  after_results_simp
  rfl

end Cert.KernelIdeal.Entry

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.LibMaxAxis1.lean ====
/-
  A general reading lemma: at the ideal values, the maximum of a rank-3 array over its MIDDLE axis, taken from −∞.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Lib

/-- The f32 word `0xFF800000` denotes −∞, the least extended real. -/
theorem negInf_f32 : Ideal.ofBits .f32 0xFF800000#32 = (⊥ : EReal) := by
  simp [Ideal.ofBits, Ideal.ieee]

/-- A `vector.multi_reduction <maximumf>` of an f32 array [a, b, c] over its middle axis with accumulator −∞, read at
    (p, o) at the ideal values, is the running maximum from ⊥ over `k : Fin b` of the array at (p, k, o) — for any
    extents. -/
theorem maximumf_axis1_apply {a b c : ℕ} (src : FVec Ideal ⟨3, ![a, b, c]⟩ .f32)
    (h : Shape.Reduces ⟨3, ![a, b, c]⟩ [1] ⟨2, ![a, c]⟩) (hφ : FKind.Formats .f32)
    (hacc : (0xFF800000#32 : BitVec 32) = FKind.maximumf.neutral .f32 hφ) (p : Fin a) (o : Fin c) :
    multiReduction .maximumf [1] ⟨2, ![a, c]⟩ src 0xFF800000#32 h hφ hacc (ix2 p o)
      = (Finset.univ : Finset (Fin b)).fold max ⊥ (fun k => src (ix3 p k o)) := by
  refine (Ideal.multiReduction_maximumf_single src _ h hφ hacc (ix2 p o)).trans ?_
  show (Finset.univ : Finset (Fin b)).fold max (Ideal.ofBits .f32 0xFF800000#32) (fun k => src (h.lift (ix2 p o) k)) = _
  have inserted : ∀ k : Fin b, h.lift (ix2 p o) k = ix3 p k o := fun k =>
    funext fun ax => Fin.ext (by match ax with | ⟨0, _⟩ => rfl | ⟨1, _⟩ => rfl | ⟨2, _⟩ => rfl)
  rw [negInf_f32]
  exact Finset.fold_congr fun k _ => congrArg src (inserted k)

end Cert.Lib

end
-- ==== Proof.LibSoftmaxAxis1.lean ====
/-
  General reading lemmas for a softmax taken over the MIDDLE axis of a rank-3 array with a trailing unit axis,
  [a, b, 1], as a vector kernel writes it: the maximum over the axis from −∞ (keepdims), subtract, exponentiate,
  the sum over the axis from zero (keepdims), divide. At the ideal values, read at (p, n, 0), the result is
  exp (s p n − M p) / ∑ k, exp (s p k − M p) with M p the running maximum from ⊥ of s p k over k — for any extents.
  Also the sum of a rank-3 f32 array over its middle axis read at an index.
-/
import Idealize.ShloMosaic.PureOps.Ideal
import Idealize.ShloMosaic.PureOps.Ideal.Laws
import Idealize.ShloMosaic.Lib.Pipeline.Value
import Idealize.ShloMosaic.Lib.ValueIdx
import proofs.«158982_j83279415869557_2_alg».proof.Proof.LibKeepdims
import proofs.«158982_j83279415869557_2_alg».proof.Proof.LibMaxAxis1

noncomputable section

open Idealize.ShloMosaic Idealize.ShloMosaic.ValueIdx

namespace Cert.Lib

/-- A `vector.multi_reduction <add>` of an f32 array [a, b, c] over its middle axis with accumulator zero, read at
    (p, o) at the ideal values, is the sum over `k : Fin b` of the array at (p, k, o) — for any extents. -/
theorem add_axis1_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = FKind.add.neutral .f32 hφ) (p : Fin a) (o : Fin c) :
    multiReduction .add [1] ⟨2, ![a, c]⟩ src 0x00000000#32 h hφ hacc (ix2 p o) = ∑ k : Fin b, src (ix3 p k o) := by
  refine (Ideal.multiReduction_add_single src _ h hφ hacc (ix2 p o)).trans ?_
  show ∑ k : Fin b, src (h.lift (ix2 p o) k) = _
  exact Finset.sum_congr rfl fun k _ => congrArg src (funext fun ax => Fin.ext (by
    match ax with | ⟨0, _⟩ => rfl | ⟨1, _⟩ => rfl | ⟨2, _⟩ => rfl))

/-- The running maximum from −∞ of row `p` of an array [a, b, 1] over its middle axis. -/
def rowTop {a b : ℕ} (s : FVec Ideal ⟨3, ![a, b, 1]⟩ .f32) (p : Fin a) : EReal :=
  (Finset.univ : Finset (Fin b)).fold max ⊥ (fun k => s (ix3 p k (0 : Fin 1)))

/-- The softmax of an array [a, b, 1] over its middle axis, as the vector operations spell it. -/
def softmaxAxis1 {a b : ℕ} (s : FVec Ideal ⟨3, ![a, b, 1]⟩ .f32)
    (hr : Shape.Reduces ⟨3, ![a, b, 1]⟩ [1] ⟨2, ![a, 1]⟩) (hφ : FKind.Formats .f32)
    (hmax : (0xFF800000#32 : BitVec 32) = FKind.maximumf.neutral .f32 hφ)
    (hadd : (0x00000000#32 : BitVec 32) = FKind.add.neutral .f32 hφ)
    (hc : (⟨2, ![a, 1]⟩ : Shape).ShapeCasts ⟨3, ![a, 1, 1]⟩)
    (hb : (⟨3, ![a, 1, 1]⟩ : Shape).Broadcasts ⟨3, ![a, b, 1]⟩) : FVec Ideal ⟨3, ![a, b, 1]⟩ .f32 :=
  divf (exp (subf s (broadcastTo ⟨3, ![a, b, 1]⟩ (shapeCast ⟨3, ![a, 1, 1]⟩
        (multiReduction .maximumf [1] ⟨2, ![a, 1]⟩ s 0xFF800000#32 hr hφ hmax) hc) hb)))
    (broadcastTo ⟨3, ![a, b, 1]⟩ (shapeCast ⟨3, ![a, 1, 1]⟩
      (multiReduction .add [1] ⟨2, ![a, 1]⟩ (exp (subf s (broadcastTo ⟨3, ![a, b, 1]⟩ (shapeCast ⟨3, ![a, 1, 1]⟩
        (multiReduction .maximumf [1] ⟨2, ![a, 1]⟩ s 0xFF800000#32 hr hφ hmax) hc) hb))) 0x00000000#32 hr hφ hadd) hc) hb)

/-- Read at (p, n, 0): the exponential of the entry less the row's maximum, over the sum of those exponentials. -/
theorem softmaxAxis1_apply {a b : ℕ} (s : FVec Ideal ⟨3, ![a, b, 1]⟩ .f32)
    (hr : Shape.Reduces ⟨3, ![a, b, 1]⟩ [1] ⟨2, ![a, 1]⟩) (hφ : FKind.Formats .f32)
    (hmax : (0xFF800000#32 : BitVec 32) = FKind.maximumf.neutral .f32 hφ)
    (hadd : (0x00000000#32 : BitVec 32) = FKind.add.neutral .f32 hφ)
    (hc : (⟨2, ![a, 1]⟩ : Shape).ShapeCasts ⟨3, ![a, 1, 1]⟩)
    (hb : (⟨3, ![a, 1, 1]⟩ : Shape).Broadcasts ⟨3, ![a, b, 1]⟩) (p : Fin a) (n : Fin b) :
    softmaxAxis1 s hr hφ hmax hadd hc hb (ix3 p n (0 : Fin 1))
      = Ideal.div (Ideal.exp (s (ix3 p n (0 : Fin 1)) - rowTop s p))
          (∑ k : Fin b, Ideal.exp (s (ix3 p k (0 : Fin 1)) - rowTop s p)) := by
  have hm : ∀ k : Fin b, broadcastTo ⟨3, ![a, b, 1]⟩ (shapeCast ⟨3, ![a, 1, 1]⟩
      (multiReduction .maximumf [1] ⟨2, ![a, 1]⟩ s 0xFF800000#32 hr hφ hmax) hc) hb (ix3 p k (0 : Fin 1)) = rowTop s p :=
    fun k => (Keepdims.castRow_broadcast_apply _ hc hb p k (0 : Fin 1)).trans (maximumf_axis1_apply s hr hφ hmax p 0)
  have he : ∀ k : Fin b, exp (subf s (broadcastTo ⟨3, ![a, b, 1]⟩ (shapeCast ⟨3, ![a, 1, 1]⟩
      (multiReduction .maximumf [1] ⟨2, ![a, 1]⟩ s 0xFF800000#32 hr hφ hmax) hc) hb)) (ix3 p k (0 : Fin 1))
        = Ideal.exp (s (ix3 p k (0 : Fin 1)) - rowTop s p) :=
    fun k => congrArg (fun t => Ideal.exp (s (ix3 p k (0 : Fin 1)) - t)) (hm k)
  unfold softmaxAxis1
  refine (divf_apply _ _ _).trans ?_
  refine congrArg₂ Ideal.div (he n) ?_
  refine (Keepdims.castRow_broadcast_apply _ hc hb p n (0 : Fin 1)).trans ?_
  refine (add_axis1_apply _ hr hφ hadd p 0).trans ?_
  exact Finset.sum_congr rfl fun k _ => he k

end Cert.Lib

end
-- ==== Proof.LibUnitMiddleAxis.lean ====
/-
  A unit middle axis inserted into a matrix by a shape cast, read at an index given by coordinates, for any element type
  and any extents: the `[a, b]` array cast to `[a, 1, b]` holds at `(p, u, j)` what the matrix holds at `(p, j)`, since both
  entries sit at row-major position `p · b + j` (the unit coordinate `u` is 0).
-/
import Idealize.ShloMosaic.Lib.ValueLayout

namespace Cert.LibUnitMiddleAxis

open Idealize.ShloMosaic Idealize.ShloMosaic.ValueIdx

variable {α : Type}

/-- `[a, b] → [a, 1, b]` read at `(p, u, j)` is the operand at `(p, j)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

end Cert.LibUnitMiddleAxis
-- ==== Proof.LibBroadcast3.lean ====
/-
  Three broadcasts of a rank-3 array read at an index given by coordinates, for any element type and any extents:
  along a leading unit axis, [1, b, c] → [a, b, c], the result at (p, i, j) is the operand at (0, i, j); along a middle
  unit axis, [a, 1, c] → [a, b, c], it is the operand at (p, 0, j); and one entry (m, n) of every matrix of a stack
  [a, b, c], cut out as [a, 1, 1] by a slice and broadcast along the last axis to [a, 1, w], is at (p, u, j) the stack at
  (p, m, n). A broadcast reads coordinate 0 on each unit axis of its operand and the result's own coordinate elsewhere;
  a slice shifts each coordinate by its offset.
-/
import Idealize.ShloMosaic.Lib.Pipeline.Value
import Idealize.ShloMosaic.Lib.ValueIdx

namespace Cert.LibBroadcast3

open Idealize.ShloMosaic Idealize.ShloMosaic.ValueIdx

variable {α : Type}

/-- An array [1, b, c] broadcast along its leading unit axis to [a, b, c] reads at (p, i, j) the array at (0, i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-- An array [a, 1, c] broadcast along its middle unit axis to [a, b, c] reads at (p, i, j) the array at (p, 0, j). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ v h (ix3 p i j) = v (ix3 p (0 : Fin 1) j) := by
  refine broadcastTo_apply v h (ix3 p i j) (ix3 p (0 : Fin 1) j) fun ax => ?_
  match ax with
  | ⟨0, _⟩ =>
    show p.val = if a = 1 then 0 else p.val
    split
    · have := p.isLt; omega
    · rfl
  | ⟨1, _⟩ => exact (if_pos rfl).symm
  | ⟨2, _⟩ =>
    show j.val = if c = 1 then 0 else j.val
    split
    · have := j.isLt; omega
    · rfl

/-- One entry (m, n) of every matrix of a stack [a, b, c], cut out as [a, 1, 1] and broadcast along the last axis to
    [a, 1, w], reads at (p, u, j) the stack at (p, m, n). -/
theorem entry_broadcast_apply {a b c w : ℕ} (m n : ℕ) (P : (⟨3, ![a, b, c]⟩ : Shape).Idx → α)
    (hs : (⟨3, ![a, b, c]⟩ : Shape).Slices ![0, m, n] ⟨3, ![a, 1, 1]⟩)
    (hb : (⟨3, ![a, 1, 1]⟩ : Shape).Broadcasts ⟨3, ![a, 1, w]⟩)
    (p : Fin a) (u : Fin 1) (j : Fin w) (mi : Fin b) (ni : Fin c) (hm : mi.val = m) (hn : ni.val = n) :
    broadcastTo ⟨3, ![a, 1, w]⟩ (extractStridedSlice ⟨3, ![a, 1, 1]⟩ ![0, m, n] P hs) hb (ix3 p u j) = P (ix3 p mi ni) := by
  refine (broadcastTo_apply _ hb (ix3 p u j) (ix3 p (0 : Fin 1) (0 : Fin 1)) fun ax => ?_).trans ?_
  · match ax with
    | ⟨0, _⟩ =>
      show p.val = if a = 1 then 0 else p.val
      split
      · have := p.isLt; omega
      · rfl
    | ⟨1, _⟩ => exact (if_pos rfl).symm
    | ⟨2, _⟩ => exact (if_pos rfl).symm
  · refine extractStridedSlice_apply _ P hs _ (ix3 p mi ni) fun ax => ?_
    match ax with
    | ⟨0, _⟩ => exact (Nat.zero_add _).symm
    | ⟨1, _⟩ => exact hm
    | ⟨2, _⟩ => exact hn

end Cert.LibBroadcast3
-- ==== Proof.BlockValue.lean ====
/-
  The value one block of the edge-feature table stores, read at an index.

  The block takes the centred coordinates of 128 row nodes x0[0, r, ·], of all 512 column nodes transposed x1[0, ·, j],
  the row nodes' 3×3 frames x2[0, r, ·, ·], their two-entry embeddings x3[0, r, ·] and the column nodes' embeddings
  transposed x4[0, ·, j]. From these it forms the differences d[r, k, j] = x0[0, r, k] − x1[0, k, j], their squared
  length summed over k, the differences scaled by 1 / (√(squared length + ε) + 1), and each frame row against the scaled
  difference added left to right; it lays the squared length, the three frame rows, the row embedding and the column
  embedding side by side along a middle axis of extent 8 = 1 + 3 + 2 + 2.

  Read at (0, r, f, j) that array is feature f of the edge from row node r to column node j. The argument reads each
  intermediate array at explicit coordinates — a shape cast by equal row-major positions, a broadcast by the coordinate
  0 on the unit axis, a slice by its offset, a join by the piece whose span holds the middle coordinate, the sum over the
  middle axis as a finite sum — and then takes the eight values of f one at a time.
-/
import proofs.«158982_j83279415869557_2_alg».proof.Proof.Spec
import proofs.«158982_j83279415869557_2_alg».proof.Proof.Gen.KernelIdeal.Skeleton
import proofs.«158982_j83279415869557_2_alg».proof.Proof.LibSoftmaxAxis1
import proofs.«158982_j83279415869557_2_alg».proof.Proof.LibKeepdims
import proofs.«158982_j83279415869557_2_alg».proof.Proof.LibUnitMiddleAxis
import proofs.«158982_j83279415869557_2_alg».proof.Proof.LibBroadcast3
import Idealize.ShloMosaic.Lib.Pipeline.Value
import Idealize.ShloMosaic.Lib.ValueIdx
import Idealize.ShloMosaic.Lib.ValueLayout

noncomputable section

namespace Cert.KernelIdeal.Block
open Cert.KernelIdeal Cert.KernelIdeal.Gen Idealize.ShloMosaic Idealize.ShloMosaic.ValueIdx Cert.EdgeSpec Cert.LibBroadcast3

/-! ## The intermediate values of the block read at coordinates -/

/-- The difference of row node r and column node j of the block. -/
def dvec (x0 : Vec Ideal S1x128x3 .f32) (x1 : Vec Ideal S1x3x512 .f32) (r : Fin 128) (j : Fin 512) : Fin 3 → EReal :=
  fun k => x0 (ix3 (0 : Fin 1) r k) - x1 (ix3 (0 : Fin 1) k j)

/-- The difference array at (r, k, j): coordinate k of the row node less coordinate k of the column node. -/
theorem pay5_apply (x0 : Vec Ideal S1x128x3 .f32) (x1 : Vec Ideal S1x3x512 .f32) (r : Fin 128) (k : Fin 3) (j : Fin 512) :
    k0_pay5 (F := Ideal) x0 x1 (ix3 r k j) = dvec x0 x1 r j k := by
  unfold k0_pay5
  refine (subf_apply _ _ _).trans ?_
  refine congrArg₂ (fun s t : EReal => s - t) ?_ ?_
  · refine (Cert.Lib.Keepdims.castCol_broadcast_apply _ _ _ r k j).trans ?_
    exact shapeCast_1ab_ab_apply x0 _ r k
  · refine (broadcastTo_1bc_abc_apply _ _ r k j).trans ?_
    refine (shapeCast_ab_1ab_apply _ _ (0 : Fin 1) k j).trans ?_
    exact shapeCast_1ab_ab_apply x1 _ k j

/-- The squared distance at (r, u, j) on the unit middle axis: the sum over k of the squared differences. -/
theorem pay6_apply (x0 : Vec Ideal S1x128x3 .f32) (x1 : Vec Ideal S1x3x512 .f32) (r : Fin 128) (u : Fin 1) (j : Fin 512) :
    k0_pay6 (F := Ideal) x0 x1 (ix3 r u j) = sqDist (dvec x0 x1 r j) := by
  unfold k0_pay6
  refine (Cert.LibUnitMiddleAxis.shapeCast_ab_a1b_apply _ _ r u j).trans ?_
  refine (Cert.Lib.add_axis1_apply _ _ _ _ r j).trans ?_
  unfold sqDist
  exact Finset.sum_congr rfl fun k _ =>
    (mulf_apply _ _ _).trans (congrArg₂ (fun s t : EReal => s * t) (pay5_apply x0 x1 r k j) (pay5_apply x0 x1 r k j))

/-- The scaled difference at (r, k, j): coordinate k of the difference over the normaliser of the edge. -/
theorem pay7_apply (x0 : Vec Ideal S1x128x3 .f32) (x1 : Vec Ideal S1x3x512 .f32) (r : Fin 128) (k : Fin 3) (j : Fin 512) :
    k0_pay7 (F := Ideal) x0 x1 (ix3 r k j) = Ideal.div (dvec x0 x1 r j k) (den (dvec x0 x1 r j)) := by
  unfold k0_pay7
  refine (divf_apply _ _ _).trans ?_
  refine congrArg₂ Ideal.div (pay5_apply x0 x1 r k j) ?_
  refine (broadcastTo_a1c_abc_apply _ _ r k j).trans ?_
  show Ideal.sqrt (k0_pay6 (F := Ideal) x0 x1 (ix3 r (0 : Fin 1) j) + eps) + one = den (dvec x0 x1 r j)
  unfold den
  rw [pay6_apply x0 x1 r (0 : Fin 1) j]

/-- The frames with the block's leading unit axis dropped, at (r, m, k). -/
theorem pay2_apply (x2 : Vec Ideal S1x128x3x3 .f32) (r : Fin 128) (m k : Fin 3) :
    k0_pay2 (F := Ideal) x2 (ix3 r m k) = x2 (ix4 (0 : Fin 1) r m k) := by
  unfold k0_pay2
  exact shapeCast_1abc_abc_apply x2 _ r m k

/-- One row m of a stack of frames P [128, 3, 3] against an array c [128, 3, 512], as the vector operations spell it:
    the entries (m, 0), (m, 1), (m, 2) of P, each broadcast along the last axis, times the three slices of c along its
    middle axis, added left to right. Read at (r, 0, j) it is (P[r,m,0]·c[r,0,j] + P[r,m,1]·c[r,1,j]) + P[r,m,2]·c[r,2,j]. -/
theorem row_apply (P : FVec Ideal S128x3x3 .f32) (c : FVec Ideal S128x3x512 .f32) (m : ℕ) (mi : Fin 3) (hm : mi.val = m)
    (h0 : S128x3x3.Slices ![0, m, 0] S128x1x1) (h1 : S128x3x3.Slices ![0, m, 1] S128x1x1)
    (h2 : S128x3x3.Slices ![0, m, 2] S128x1x1) (hb : S128x1x1.Broadcasts S128x1x512)
    (g0 : S128x3x512.Slices ![0, 0, 0] S128x1x512) (g1 : S128x3x512.Slices ![0, 1, 0] S128x1x512)
    (g2 : S128x3x512.Slices ![0, 2, 0] S128x1x512) (r : Fin 128) (j : Fin 512) :
    addf (addf
        (mulf (broadcastTo S128x1x512 (extractStridedSlice S128x1x1 ![0, m, 0] P h0) hb)
          (extractStridedSlice S128x1x512 ![0, 0, 0] c g0))
        (mulf (broadcastTo S128x1x512 (extractStridedSlice S128x1x1 ![0, m, 1] P h1) hb)
          (extractStridedSlice S128x1x512 ![0, 1, 0] c g1)))
      (mulf (broadcastTo S128x1x512 (extractStridedSlice S128x1x1 ![0, m, 2] P h2) hb)
        (extractStridedSlice S128x1x512 ![0, 2, 0] c g2)) (ix3 r (0 : Fin 1) j)
      = (P (ix3 r mi 0) * c (ix3 r 0 j) + P (ix3 r mi 1) * c (ix3 r 1 j)) + P (ix3 r mi 2) * c (ix3 r 2 j) := by
  have e0 := entry_broadcast_apply m 0 P h0 hb r (0 : Fin 1) j mi (0 : Fin 3) hm rfl
  have e1 := entry_broadcast_apply m 1 P h1 hb r (0 : Fin 1) j mi (1 : Fin 3) hm rfl
  have e2 := entry_broadcast_apply m 2 P h2 hb r (0 : Fin 1) j mi (2 : Fin 3) hm rfl
  have s0 := slice3_axis1_apply 0 c g0 r (0 : Fin 1) j (0 : Fin 3) rfl
  have s1 := slice3_axis1_apply 1 c g1 r (0 : Fin 1) j (1 : Fin 3) rfl
  have s2 := slice3_axis1_apply 2 c g2 r (0 : Fin 1) j (2 : Fin 3) rfl
  refine (addf_apply _ _ _).trans ?_
  refine congrArg₂ (fun s t : EReal => s + t) ((addf_apply _ _ _).trans ?_) ((mulf_apply _ _ _).trans ?_)
  · exact congrArg₂ (fun s t : EReal => s + t)
      ((mulf_apply _ _ _).trans (congrArg₂ (fun s t : EReal => s * t) e0 s0))
      ((mulf_apply _ _ _).trans (congrArg₂ (fun s t : EReal => s * t) e1 s1))
  · exact congrArg₂ (fun s t : EReal => s * t) e2 s2

/-- Row m of the block's frames against the scaled difference: feature 1 + m of the edge (r, j). -/
theorem frame_row (x0 : Vec Ideal S1x128x3 .f32) (x1 : Vec Ideal S1x3x512 .f32) (x2 : Vec Ideal S1x128x3x3 .f32)
    (r : Fin 128) (mi : Fin 3) (j : Fin 512) :
    (k0_pay2 (F := Ideal) x2 (ix3 r mi 0) * k0_pay7 (F := Ideal) x0 x1 (ix3 r 0 j)
        + k0_pay2 (F := Ideal) x2 (ix3 r mi 1) * k0_pay7 (F := Ideal) x0 x1 (ix3 r 1 j))
      + k0_pay2 (F := Ideal) x2 (ix3 r mi 2) * k0_pay7 (F := Ideal) x0 x1 (ix3 r 2 j)
      = through (fun k => x2 (ix4 (0 : Fin 1) r mi k)) (dvec x0 x1 r j) := by
  unfold through
  exact congrArg₂ (fun s t : EReal => s + t)
    (congrArg₂ (fun s t : EReal => s + t)
      (congrArg₂ (fun s t : EReal => s * t) (pay2_apply x2 r mi 0) (pay7_apply x0 x1 r 0 j))
      (congrArg₂ (fun s t : EReal => s * t) (pay2_apply x2 r mi 1) (pay7_apply x0 x1 r 1 j)))
    (congrArg₂ (fun s t : EReal => s * t) (pay2_apply x2 r mi 2) (pay7_apply x0 x1 r 2 j))

/-- The first frame row through the scaled difference, at (r, 0, j). -/
theorem pay8_apply (x0 : Vec Ideal S1x128x3 .f32) (x1 : Vec Ideal S1x3x512 .f32) (x2 : Vec Ideal S1x128x3x3 .f32)
    (r : Fin 128) (j : Fin 512) :
    k0_pay8 (F := Ideal) x0 x1 x2 (ix3 r (0 : Fin 1) j)
      = through (fun k => x2 (ix4 (0 : Fin 1) r 0 k)) (dvec x0 x1 r j) := by
  unfold k0_pay8
  exact (row_apply (k0_pay2 x2) (k0_pay7 x0 x1) 0 0 rfl _ _ _ _ _ _ _ r j).trans (frame_row x0 x1 x2 r 0 j)

/-! ## The two concatenations read at an index -/

section Cat
variable {α : Type}

/-- Three [128, 1, 512] pieces stacked along the middle axis: at (r, m, j) the stack holds piece m at (r, 0, j). -/
theorem cat3_apply_0 (A B C : S128x1x512.Idx → α)
    (h : Shape.Concatenates [S128x1x512, S128x1x512, S128x1x512] S128x3x512 1) (r : Fin 128) (j : Fin 512) :
    concatenate S128x3x512 1 [⟨S128x1x512, A⟩, ⟨S128x1x512, B⟩, ⟨S128x1x512, C⟩] h (ix3 r (0 : Fin 3) j)
      = A (ix3 r (0 : Fin 1) j) := by
  refine concatenate_apply_piece (t := S128x3x512) (1 : Fin 3) [⟨S128x1x512, A⟩, ⟨S128x1x512, B⟩, ⟨S128x1x512, C⟩] h (ix3 r (0 : Fin 3) j) 0 (by show (0 : ℕ) < 3; omega) S128x1x512 A rfl rfl 0 rfl
    (ix3 r (0 : Fin 1) j) (fun b hb => ?_) rfl
  match b with
  | ⟨0, _⟩ => rfl
  | ⟨1, _⟩ => exact absurd rfl hb
  | ⟨2, _⟩ => rfl

theorem cat3_apply_1 (A B C : S128x1x512.Idx → α)
    (h : Shape.Concatenates [S128x1x512, S128x1x512, S128x1x512] S128x3x512 1) (r : Fin 128) (j : Fin 512) :
    concatenate S128x3x512 1 [⟨S128x1x512, A⟩, ⟨S128x1x512, B⟩, ⟨S128x1x512, C⟩] h (ix3 r (1 : Fin 3) j)
      = B (ix3 r (0 : Fin 1) j) := by
  refine concatenate_apply_piece (t := S128x3x512) (1 : Fin 3) [⟨S128x1x512, A⟩, ⟨S128x1x512, B⟩, ⟨S128x1x512, C⟩] h (ix3 r (1 : Fin 3) j) 1 (by show (1 : ℕ) < 3; omega) S128x1x512 B rfl rfl 1 rfl
    (ix3 r (0 : Fin 1) j) (fun b hb => ?_) rfl
  match b with
  | ⟨0, _⟩ => rfl
  | ⟨1, _⟩ => exact absurd rfl hb
  | ⟨2, _⟩ => rfl

theorem cat3_apply_2 (A B C : S128x1x512.Idx → α)
    (h : Shape.Concatenates [S128x1x512, S128x1x512, S128x1x512] S128x3x512 1) (r : Fin 128) (j : Fin 512) :
    concatenate S128x3x512 1 [⟨S128x1x512, A⟩, ⟨S128x1x512, B⟩, ⟨S128x1x512, C⟩] h (ix3 r (2 : Fin 3) j)
      = C (ix3 r (0 : Fin 1) j) := by
  refine concatenate_apply_piece (t := S128x3x512) (1 : Fin 3) [⟨S128x1x512, A⟩, ⟨S128x1x512, B⟩, ⟨S128x1x512, C⟩] h (ix3 r (2 : Fin 3) j) 2 (by show (2 : ℕ) < 3; omega) S128x1x512 C rfl rfl 2 rfl
    (ix3 r (0 : Fin 1) j) (fun b hb => ?_) rfl
  match b with
  | ⟨0, _⟩ => rfl
  | ⟨1, _⟩ => exact absurd rfl hb
  | ⟨2, _⟩ => rfl

end Cat

section Cat4
variable {α : Type}

/-- Four pieces of extents 1, 3, 2, 2 joined along the middle axis of [128, 8, 512]: a middle coordinate f = u, u < 1, reads the first piece at (r, u, j). -/
theorem cat4_apply_0 (A : S128x1x512.Idx → α) (B : S128x3x512.Idx → α) (C D : S128x2x512.Idx → α)
    (h : Shape.Concatenates [S128x1x512, S128x3x512, S128x2x512, S128x2x512] S128x8x512 1) (r : Fin 128) (j : Fin 512)
    (f : Fin 8) (u : Fin 1) (hf : 0 + u.val = f.val) :
    concatenate S128x8x512 1 [⟨S128x1x512, A⟩, ⟨S128x3x512, B⟩, ⟨S128x2x512, C⟩, ⟨S128x2x512, D⟩] h (ix3 r f j) = A (ix3 r u j) := by
  refine concatenate_apply_piece (t := S128x8x512) (1 : Fin 3) [⟨S128x1x512, A⟩, ⟨S128x3x512, B⟩, ⟨S128x2x512, C⟩, ⟨S128x2x512, D⟩] h (ix3 r f j) 0 (by show (0 : ℕ) < 4; omega)
    S128x1x512 A rfl rfl 0 rfl (ix3 r u j) (fun b hb => ?_) hf
  match b with
  | ⟨0, _⟩ => rfl
  | ⟨1, _⟩ => exact absurd rfl hb
  | ⟨2, _⟩ => rfl

/-- The same join: a middle coordinate f = 1 + u, u < 3, reads the second piece at (r, u, j). -/
theorem cat4_apply_1 (A : S128x1x512.Idx → α) (B : S128x3x512.Idx → α) (C D : S128x2x512.Idx → α)
    (h : Shape.Concatenates [S128x1x512, S128x3x512, S128x2x512, S128x2x512] S128x8x512 1) (r : Fin 128) (j : Fin 512)
    (f : Fin 8) (u : Fin 3) (hf : 1 + u.val = f.val) :
    concatenate S128x8x512 1 [⟨S128x1x512, A⟩, ⟨S128x3x512, B⟩, ⟨S128x2x512, C⟩, ⟨S128x2x512, D⟩] h (ix3 r f j) = B (ix3 r u j) := by
  refine concatenate_apply_piece (t := S128x8x512) (1 : Fin 3) [⟨S128x1x512, A⟩, ⟨S128x3x512, B⟩, ⟨S128x2x512, C⟩, ⟨S128x2x512, D⟩] h (ix3 r f j) 1 (by show (1 : ℕ) < 4; omega)
    S128x3x512 B rfl rfl 1 rfl (ix3 r u j) (fun b hb => ?_) hf
  match b with
  | ⟨0, _⟩ => rfl
  | ⟨1, _⟩ => exact absurd rfl hb
  | ⟨2, _⟩ => rfl

/-- The same join: a middle coordinate f = 4 + u, u < 2, reads the third piece at (r, u, j). -/
theorem cat4_apply_2 (A : S128x1x512.Idx → α) (B : S128x3x512.Idx → α) (C D : S128x2x512.Idx → α)
    (h : Shape.Concatenates [S128x1x512, S128x3x512, S128x2x512, S128x2x512] S128x8x512 1) (r : Fin 128) (j : Fin 512)
    (f : Fin 8) (u : Fin 2) (hf : 4 + u.val = f.val) :
    concatenate S128x8x512 1 [⟨S128x1x512, A⟩, ⟨S128x3x512, B⟩, ⟨S128x2x512, C⟩, ⟨S128x2x512, D⟩] h (ix3 r f j) = C (ix3 r u j) := by
  refine concatenate_apply_piece (t := S128x8x512) (1 : Fin 3) [⟨S128x1x512, A⟩, ⟨S128x3x512, B⟩, ⟨S128x2x512, C⟩, ⟨S128x2x512, D⟩] h (ix3 r f j) 2 (by show (2 : ℕ) < 4; omega)
    S128x2x512 C rfl rfl 4 rfl (ix3 r u j) (fun b hb => ?_) hf
  match b with
  | ⟨0, _⟩ => rfl
  | ⟨1, _⟩ => exact absurd rfl hb
  | ⟨2, _⟩ => rfl

/-- The same join: a middle coordinate f = 6 + u, u < 2, reads the fourth piece at (r, u, j). -/
theorem cat4_apply_3 (A : S128x1x512.Idx → α) (B : S128x3x512.Idx → α) (C D : S128x2x512.Idx → α)
    (h : Shape.Concatenates [S128x1x512, S128x3x512, S128x2x512, S128x2x512] S128x8x512 1) (r : Fin 128) (j : Fin 512)
    (f : Fin 8) (u : Fin 2) (hf : 6 + u.val = f.val) :
    concatenate S128x8x512 1 [⟨S128x1x512, A⟩, ⟨S128x3x512, B⟩, ⟨S128x2x512, C⟩, ⟨S128x2x512, D⟩] h (ix3 r f j) = D (ix3 r u j) := by
  refine concatenate_apply_piece (t := S128x8x512) (1 : Fin 3) [⟨S128x1x512, A⟩, ⟨S128x3x512, B⟩, ⟨S128x2x512, C⟩, ⟨S128x2x512, D⟩] h (ix3 r f j) 3 (by show (3 : ℕ) < 4; omega)
    S128x2x512 D rfl rfl 6 rfl (ix3 r u j) (fun b hb => ?_) hf
  match b with
  | ⟨0, _⟩ => rfl
  | ⟨1, _⟩ => exact absurd rfl hb
  | ⟨2, _⟩ => rfl

end Cat4

/-! ## The embeddings, and the stored block at an index -/

/-- The row embeddings with the block's leading unit axis dropped, at (r, u). -/
theorem pay3_apply (x3 : Vec Ideal S1x128x2 .f32) (r : Fin 128) (u : Fin 2) :
    k0_pay3 (F := Ideal) x3 (ix2 r u) = x3 (ix3 (0 : Fin 1) r u) := by
  unfold k0_pay3
  exact shapeCast_1ab_ab_apply x3 _ r u

/-- The column embeddings with the block's leading unit axis dropped, at (u, j). -/
theorem pay4_apply (x4 : Vec Ideal S1x2x512 .f32) (u : Fin 2) (j : Fin 512) :
    k0_pay4 (F := Ideal) x4 (ix2 u j) = x4 (ix3 (0 : Fin 1) u j) := by
  unfold k0_pay4
  exact shapeCast_1ab_ab_apply x4 _ u j

/-- The row embeddings given a trailing unit axis and broadcast along it: at (r, u, j), entry u of row node r. -/
theorem rowEmb_apply (v : FVec Ideal S128x2 .f32) (h1 : S128x2.ShapeCasts S128x2x1) (h2 : S128x2x1.ShapeCasts S128x2x1)
    (h3 : S128x2x1.Broadcasts S128x2x512) (r : Fin 128) (u : Fin 2) (j : Fin 512) :
    broadcastTo S128x2x512 (shapeCast S128x2x1 (shapeCast S128x2x1 v h1) h2) h3 (ix3 r u j) = v (ix2 r u) :=
  (congrArg (fun w => broadcastTo S128x2x512 w h3 (ix3 r u j)) (shapeCast_self _ h2)).trans
    (Cert.Lib.Keepdims.castCol_broadcast_apply v h1 h3 r u j)

/-- The column embeddings given a leading unit axis and broadcast along it: at (r, u, j), entry u of column node j. -/
theorem colEmb_apply (v : FVec Ideal S2x512 .f32) (h1 : S2x512.ShapeCasts S1x2x512) (h2 : S1x2x512.ShapeCasts S1x2x512)
    (h3 : S1x2x512.Broadcasts S128x2x512) (r : Fin 128) (u : Fin 2) (j : Fin 512) :
    broadcastTo S128x2x512 (shapeCast S1x2x512 (shapeCast S1x2x512 v h1) h2) h3 (ix3 r u j) = v (ix2 u j) :=
  (congrArg (fun w => broadcastTo S128x2x512 w h3 (ix3 r u j)) (shapeCast_self _ h2)).trans
    ((broadcastTo_1bc_abc_apply _ h3 r u j).trans (shapeCast_ab_1ab_apply v h1 (0 : Fin 1) u j))

/-- **The stored block at (0, r, f, j)** is feature f of the edge from row node r to column node j. -/
theorem payload_apply (x0 : Vec Ideal S1x128x3 .f32) (x1 : Vec Ideal S1x3x512 .f32) (x2 : Vec Ideal S1x128x3x3 .f32)
    (x3 : Vec Ideal S1x128x2 .f32) (x4 : Vec Ideal S1x2x512 .f32) (r : Fin 128) (f : Fin 8) (j : Fin 512) :
    k0_pay1 (F := Ideal) (k0_pay2 x2) (k0_pay3 x3) (k0_pay4 x4) (k0_pay6 x0 x1) (k0_pay7 x0 x1) (k0_pay8 x0 x1 x2)
        (ix4 (0 : Fin 1) r f j)
      = feat (fun k => x0 (ix3 (0 : Fin 1) r k) - x1 (ix3 (0 : Fin 1) k j)) (fun m k => x2 (ix4 (0 : Fin 1) r m k))
          (fun u => x3 (ix3 (0 : Fin 1) r u)) (fun u => x4 (ix3 (0 : Fin 1) u j)) f := by
  unfold k0_pay1
  refine (shapeCast_abc_1abc_apply _ _ (0 : Fin 1) r f j).trans ?_
  match f with
  | ⟨0, _⟩ =>
    refine (cat4_apply_0 _ _ _ _ _ r j _ (0 : Fin 1) rfl).trans ?_
    exact pay6_apply x0 x1 r 0 j
  | ⟨1, _⟩ =>
    refine (cat4_apply_1 _ _ _ _ _ r j _ (0 : Fin 3) rfl).trans ?_
    refine (cat3_apply_0 _ _ _ _ r j).trans ?_
    exact pay8_apply x0 x1 x2 r j
  | ⟨2, _⟩ =>
    refine (cat4_apply_1 _ _ _ _ _ r j _ (1 : Fin 3) rfl).trans ?_
    refine (cat3_apply_1 _ _ _ _ r j).trans ?_
    exact (row_apply (k0_pay2 x2) (k0_pay7 x0 x1) 1 1 rfl _ _ _ _ _ _ _ r j).trans (frame_row x0 x1 x2 r 1 j)
  | ⟨3, _⟩ =>
    refine (cat4_apply_1 _ _ _ _ _ r j _ (2 : Fin 3) rfl).trans ?_
    refine (cat3_apply_2 _ _ _ _ r j).trans ?_
    exact (row_apply (k0_pay2 x2) (k0_pay7 x0 x1) 2 2 rfl _ _ _ _ _ _ _ r j).trans (frame_row x0 x1 x2 r 2 j)
  | ⟨4, _⟩ =>
    refine (cat4_apply_2 _ _ _ _ _ r j _ (0 : Fin 2) rfl).trans ?_
    exact (rowEmb_apply _ _ _ _ r 0 j).trans (pay3_apply x3 r 0)
  | ⟨5, _⟩ =>
    refine (cat4_apply_2 _ _ _ _ _ r j _ (1 : Fin 2) rfl).trans ?_
    exact (rowEmb_apply _ _ _ _ r 1 j).trans (pay3_apply x3 r 1)
  | ⟨6, _⟩ =>
    refine (cat4_apply_3 _ _ _ _ _ r j _ (0 : Fin 2) rfl).trans ?_
    exact (colEmb_apply _ _ _ _ r 0 j).trans (pay4_apply x4 0 j)
  | ⟨7, _⟩ =>
    refine (cat4_apply_3 _ _ _ _ _ r j _ (1 : Fin 2) rfl).trans ?_
    exact (colEmb_apply _ _ _ _ r 1 j).trans (pay4_apply x4 1 j)
  | ⟨n + 8, h⟩ => exact absurd h (by omega)

end Cert.KernelIdeal.Block

end
-- ==== Proof.Blocks.lean ====
/-
  From one grid point's block to the whole output array.

  Grid point t = (batch b, row block ii) loads rows [128·ii, 128·ii + 128) of batch b of the centred coordinates, the
  frames and the embedding, and all of batch b of the two arrays that hold the coordinates and the embedding with the node
  axis last; what it stores is therefore rows [128·ii, 128·ii + 128) of batch b of the table [b, i, f, j]. The 64 blocks fill
  the output array, so after the region the array is that table.
-/
import proofs.«158982_j83279415869557_2_alg».proof.Proof.Spec
import proofs.«158982_j83279415869557_2_alg».proof.Proof.Gen.KernelIdeal.Frame
import proofs.«158982_j83279415869557_2_alg».proof.Proof.HostPrefix
import proofs.«158982_j83279415869557_2_alg».proof.Proof.BlockValue
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeSpec Cert.KernelIdeal.Block
open Idealize.ShloMosaic.Pipeline (Dat)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- One block of the body's stored value is a block of the table: if the five loaded blocks are rows
    [ii·128, ii·128 + 128) of batch b of the coordinates, frames and embeddings, and all of batch b of the two
    transposed arrays, then the stored value at (0, r, f, j) is the table's entry (b, ii·128 + r, f, j). -/
theorem stored_eq (X0 : Vec Ideal S1x128x3 .f32) (X1 : Vec Ideal S1x3x512 .f32) (X2 : Vec Ideal S1x128x3x3 .f32)
    (X3 : Vec Ideal S1x128x2 .f32) (X4 : Vec Ideal S1x2x512 .f32)
    (xc : S16x512x3.Idx → EReal) (P : S16x512x3x3.Idx → EReal) (he : S16x512x2.Idx → EReal)
    (b : Fin 16) (row : Fin 128 → Fin 512)
    (h0 : ∀ (r : Fin 128) (k : Fin 3), X0 (ix3 (0 : Fin 1) r k) = xc (ix3 b (row r) k))
    (h1 : ∀ (k : Fin 3) (j : Fin 512), X1 (ix3 (0 : Fin 1) k j) = xc (ix3 b j k))
    (h2 : ∀ (r : Fin 128) (mm k : Fin 3), X2 (ix4 (0 : Fin 1) r mm k) = P (ix4 b (row r) mm k))
    (h3 : ∀ (r : Fin 128) (u : Fin 2), X3 (ix3 (0 : Fin 1) r u) = he (ix3 b (row r) u))
    (h4 : ∀ (u : Fin 2) (j : Fin 512), X4 (ix3 (0 : Fin 1) u j) = he (ix3 b j u))
    (r : Fin 128) (f : Fin 8) (j : Fin 512) :
    k0_pay1 (F := Ideal) (k0_pay2 X2) (k0_pay3 X3) (k0_pay4 X4) (k0_pay6 X0 X1) (k0_pay7 X0 X1) (k0_pay8 X0 X1 X2)
        (ix4 (0 : Fin 1) r f j)
      = tableT xc P he (ix4 b (row r) f j) := by
  rw [payload_apply, tableT_apply]
  unfold edge
  simp only [h0, h1, h2, h3, h4]

/-- The same at any index of the stored block. -/
theorem stored_at (X0 : Vec Ideal S1x128x3 .f32) (X1 : Vec Ideal S1x3x512 .f32) (X2 : Vec Ideal S1x128x3x3 .f32)
    (X3 : Vec Ideal S1x128x2 .f32) (X4 : Vec Ideal S1x2x512 .f32)
    (xc : S16x512x3.Idx → EReal) (P : S16x512x3x3.Idx → EReal) (he : S16x512x2.Idx → EReal)
    (b : Fin 16) (row : Fin 128 → Fin 512)
    (h0 : ∀ (r : Fin 128) (k : Fin 3), X0 (ix3 (0 : Fin 1) r k) = xc (ix3 b (row r) k))
    (h1 : ∀ (k : Fin 3) (j : Fin 512), X1 (ix3 (0 : Fin 1) k j) = xc (ix3 b j k))
    (h2 : ∀ (r : Fin 128) (mm k : Fin 3), X2 (ix4 (0 : Fin 1) r mm k) = P (ix4 b (row r) mm k))
    (h3 : ∀ (r : Fin 128) (u : Fin 2), X3 (ix3 (0 : Fin 1) r u) = he (ix3 b (row r) u))
    (h4 : ∀ (u : Fin 2) (j : Fin 512), X4 (ix3 (0 : Fin 1) u j) = he (ix3 b j u))
    (y : S1x128x8x512.Idx) :
    k0_pay1 (F := Ideal) (k0_pay2 X2) (k0_pay3 X3) (k0_pay4 X4) (k0_pay6 X0 X1) (k0_pay7 X0 X1) (k0_pay8 X0 X1 X2) y
      = tableT xc P he (ix4 b (row (y 1)) (y 2) (y 3)) := by
  have hy : y = ix4 (0 : Fin 1) (y 1) (y 2) (y 3) := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  exact (congrArg (k0_pay1 (F := Ideal) (k0_pay2 X2) (k0_pay3 X3) (k0_pay4 X4) (k0_pay6 X0 X1) (k0_pay7 X0 X1)
    (k0_pay8 X0 X1 X2)) hy).trans (stored_eq X0 X1 X2 X3 X4 xc P he b row h0 h1 h2 h3 h4 (y 1) (y 2) (y 3))

variable (m : (ℓ : Loc nD τ sig) → Buf (Elt Ideal) ℓ)

/-- The printed index maps over the grid: every input window's block moves with the output window's on the batch axis,
    the three row-node windows also on the row axis, and every other block coordinate is zero. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = 0 ∧ win0_1.index t (2 : Fin 3) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 3) = win0_5.index t (0 : Fin 4) ∧ win0_3.index t (1 : Fin 3) = win0_5.index t (1 : Fin 4)
    ∧ win0_3.index t (2 : Fin 3) = 0
    ∧ win0_4.index t (0 : Fin 3) = win0_5.index t (0 : Fin 4) ∧ win0_4.index t (1 : Fin 3) = 0 ∧ win0_4.index t (2 : Fin 3) = 0
    ∧ win0_5.index t (0 : Fin 4) ≤ 15 ∧ win0_5.index t (1 : Fin 4) ≤ 3 ∧ win0_5.index t (2 : Fin 4) = 0
    ∧ win0_5.index t (3 : Fin 4) = 0 :=
  (by decide +kernel : ∀ t : Fin grid0.N, _)

/-- Every (batch, row block) pair is some grid point's. -/
theorem idx_onto : ∀ (q0 : Fin 16) (q1 : Fin 4), ∃ t : Fin cfg0.N, win0_5.index t = ![q0.val, q1.val, 0, 0] :=
  (by decide +kernel : ∀ (q0 : Fin 16) (q1 : Fin 4), ∃ t : Fin grid0.N, win0_5.index t = ![q0.val, q1.val, 0, 0])

/-- The batch of grid point t. -/
def batchOf (t : Fin cfg0.N) : Fin 16 := ⟨win0_5.index t (0 : Fin 4), by have := (idx_facts t).2.2.2.2.2.2.2.2.2.2.2.2.2.2.2.2.1; omega⟩

/-- The node that row r of grid point t's row block is. -/
def rowOf (t : Fin cfg0.N) (r : Fin 128) : Fin 512 :=
  ⟨win0_5.index t (1 : Fin 4) * 128 + r.val, by
    have := (idx_facts t).2.2.2.2.2.2.2.2.2.2.2.2.2.2.2.2.2.1; have := r.isLt; omega⟩

/-- Window 0's block at t: rows of the centred coordinates. -/
theorem read0 (c : Dev nD) (t : Fin cfg0.N) (r : Fin 128) (k : Fin 3) :
    iblk m c 0 t (ix3 (0 : Fin 1) r k) = V m c main_v11 (ix3 (batchOf t) (rowOf t r) k) := by
  obtain ⟨e00, e01, e02, -⟩ := idx_facts t
  show V m c main_v11 (((cfg0.win 0).blk t).view.emb (ix3 (0 : Fin 1) r k)) = _
  refine congrArg (V m c main_v11) (funext fun a => Fin.ext ?_)
  match a with
  | ⟨0, _⟩ => show win0_0.index t (0 : Fin 3) * 1 + 1 * 0 = win0_5.index t (0 : Fin 4); omega
  | ⟨1, _⟩ => show win0_0.index t (1 : Fin 3) * 128 + 1 * r.val = win0_5.index t (1 : Fin 4) * 128 + r.val; omega
  | ⟨2, _⟩ => show win0_0.index t (2 : Fin 3) * 3 + 1 * k.val = k.val; omega

/-- Window 1's block at t: the whole batch of the centred coordinates, node axis last. -/
theorem read1 (c : Dev nD) (t : Fin cfg0.N) (k : Fin 3) (j : Fin 512) :
    iblk m c 1 t (ix3 (0 : Fin 1) k j) = V m c main_v11 (ix3 (batchOf t) j k) := by
  obtain ⟨-, -, -, e10, e11, e12, -⟩ := idx_facts t
  show V m c main_v23 (((cfg0.win 1).blk t).view.emb (ix3 (0 : Fin 1) k j)) = _
  rw [Cert.KernelIdeal.Entry.xcT_eq]
  refine Eq.trans ?_ (transpose_ix3_021_apply (V m c main_v11) transposes_S16x512x3_S16x3x512_0_2_1 (batchOf t) k j)
  refine congrArg (transpose S16x3x512 [0, 2, 1] (V m c main_v11) transposes_S16x512x3_S16x3x512_0_2_1)
    (funext fun a => Fin.ext ?_)
  match a with
  | ⟨0, _⟩ => show win0_1.index t (0 : Fin 3) * 1 + 1 * 0 = win0_5.index t (0 : Fin 4); omega
  | ⟨1, _⟩ => show win0_1.index t (1 : Fin 3) * 3 + 1 * k.val = k.val; omega
  | ⟨2, _⟩ => show win0_1.index t (2 : Fin 3) * 512 + 1 * j.val = j.val; omega

/-- Window 2's block at t: rows of the frames. -/
theorem read2 (c : Dev nD) (t : Fin cfg0.N) (r : Fin 128) (mm k : Fin 3) :
    iblk m c 2 t (ix4 (0 : Fin 1) r mm k) = V m c main_v22 (ix4 (batchOf t) (rowOf t r) mm k) := by
  obtain ⟨-, -, -, -, -, -, e20, e21, e22, e23, -⟩ := idx_facts t
  show V m c main_v22 (((cfg0.win 2).blk t).view.emb (ix4 (0 : Fin 1) r mm k)) = _
  refine congrArg (V m c main_v22) (funext fun a => Fin.ext ?_)
  match a with
  | ⟨0, _⟩ => show win0_2.index t (0 : Fin 4) * 1 + 1 * 0 = win0_5.index t (0 : Fin 4); omega
  | ⟨1, _⟩ => show win0_2.index t (1 : Fin 4) * 128 + 1 * r.val = win0_5.index t (1 : Fin 4) * 128 + r.val; omega
  | ⟨2, _⟩ => show win0_2.index t (2 : Fin 4) * 3 + 1 * mm.val = mm.val; omega
  | ⟨3, _⟩ => show win0_2.index t (3 : Fin 4) * 3 + 1 * k.val = k.val; omega

/-- Window 3's block at t: rows of the embedding. -/
theorem read3 (c : Dev nD) (t : Fin cfg0.N) (r : Fin 128) (u : Fin 2) :
    iblk m c 3 t (ix3 (0 : Fin 1) r u) = V m c main_v21 (ix3 (batchOf t) (rowOf t r) u) := by
  obtain ⟨-, -, -, -, -, -, -, -, -, -, e30, e31, e32, -⟩ := idx_facts t
  show V m c main_v21 (((cfg0.win 3).blk t).view.emb (ix3 (0 : Fin 1) r u)) = _
  refine congrArg (V m c main_v21) (funext fun a => Fin.ext ?_)
  match a with
  | ⟨0, _⟩ => show win0_3.index t (0 : Fin 3) * 1 + 1 * 0 = win0_5.index t (0 : Fin 4); omega
  | ⟨1, _⟩ => show win0_3.index t (1 : Fin 3) * 128 + 1 * r.val = win0_5.index t (1 : Fin 4) * 128 + r.val; omega
  | ⟨2, _⟩ => show win0_3.index t (2 : Fin 3) * 2 + 1 * u.val = u.val; omega

/-- Window 4's block at t: the whole batch of the embedding, node axis last. -/
theorem read4 (c : Dev nD) (t : Fin cfg0.N) (u : Fin 2) (j : Fin 512) :
    iblk m c 4 t (ix3 (0 : Fin 1) u j) = V m c main_v21 (ix3 (batchOf t) j u) := by
  obtain ⟨-, -, -, -, -, -, -, -, -, -, -, -, -, e40, e41, e42, -⟩ := idx_facts t
  show V m c main_v24 (((cfg0.win 4).blk t).view.emb (ix3 (0 : Fin 1) u j)) = _
  rw [Cert.KernelIdeal.Entry.heT_eq]
  refine Eq.trans ?_ (transpose_ix3_021_apply (V m c main_v21) transposes_S16x512x2_S16x2x512_0_2_1 (batchOf t) u j)
  refine congrArg (transpose S16x2x512 [0, 2, 1] (V m c main_v21) transposes_S16x512x2_S16x2x512_0_2_1)
    (funext fun a => Fin.ext ?_)
  match a with
  | ⟨0, _⟩ => show win0_4.index t (0 : Fin 3) * 1 + 1 * 0 = win0_5.index t (0 : Fin 4); omega
  | ⟨1, _⟩ => show win0_4.index t (1 : Fin 3) * 2 + 1 * u.val = u.val; omega
  | ⟨2, _⟩ => show win0_4.index t (2 : Fin 3) * 512 + 1 * j.val = j.val; omega

/-- Where an index of the output block sits in the output array. -/
theorem out_emb (t : Fin cfg0.N) (y : S1x128x8x512.Idx) :
    ((cfg0.win 5).blk t).view.emb y = ix4 (batchOf t) (rowOf t (y 1)) (y 2) (y 3) := by
  obtain ⟨-, -, -, -, -, -, -, -, -, -, -, -, -, -, -, -, b0, b1, z2, z3⟩ := idx_facts t
  have hy0 : (y 0).val < 1 := (y 0).isLt
  funext a
  refine Fin.ext ?_
  match a with
  | ⟨0, _⟩ => show win0_5.index t (0 : Fin 4) * 1 + 1 * (y 0).val = win0_5.index t (0 : Fin 4); omega
  | ⟨1, _⟩ => show win0_5.index t (1 : Fin 4) * 128 + 1 * (y 1).val = win0_5.index t (1 : Fin 4) * 128 + (y 1).val; omega
  | ⟨2, _⟩ => show win0_5.index t (2 : Fin 4) * 8 + 1 * (y 2).val = (y 2).val; omega
  | ⟨3, _⟩ => show win0_5.index t (3 : Fin 4) * 512 + 1 * (y 3).val = (y 3).val; omega

/-- What grid point t writes back is block t of the table [b, i, f, j] of the arrays the region finds. -/
theorem flushed_eq (c : Dev nD) (t : Fin cfg0.N) :
    (dats m 0 c).flushed 5 t
      = ((cfg0.win 5).blk t).view.read (Elt Ideal) (tableT (V m c main_v11) (V m c main_v22) (V m c main_v21)) := by
  show (cfg0.win 5).cut (grid0.coords t) ((dats m 0 c).after 5 t) = _
  rw [after0_5]
  unfold out0_5
  rw [View.canon_unit_zero zeros4]
  simp only [View.ld_unit_zero (S := S1x128x3) zeros3, View.ld_unit_zero (S := S1x3x512) zeros3,
    View.ld_unit_zero (S := S1x128x3x3) zeros4, View.ld_unit_zero (S := S1x128x2) zeros3,
    View.ld_unit_zero (S := S1x2x512) zeros3]
  funext y
  show k0_pay1 (F := Ideal) (k0_pay2 (iblk m c 2 t)) (k0_pay3 (iblk m c 3 t)) (k0_pay4 (iblk m c 4 t))
      (k0_pay6 (iblk m c 0 t) (iblk m c 1 t)) (k0_pay7 (iblk m c 0 t) (iblk m c 1 t))
      (k0_pay8 (iblk m c 0 t) (iblk m c 1 t) (iblk m c 2 t)) y
    = tableT (V m c main_v11) (V m c main_v22) (V m c main_v21) (((cfg0.win 5).blk t).view.emb y)
  rw [out_emb]
  exact stored_at (iblk m c 0 t) (iblk m c 1 t) (iblk m c 2 t) (iblk m c 3 t) (iblk m c 4 t)
    (V m c main_v11) (V m c main_v22) (V m c main_v21) (batchOf t) (rowOf t) (read0 m c t) (read1 m c t) (read2 m c t)
    (read3 m c t) (read4 m c t) y

/-- An index of the output array is in point t's block iff each coordinate is in the block's range on its axis. -/
theorem mem_blk (t : Fin cfg0.N) (i : S16x512x8x512.Idx) :
    i ∈ ((cfg0.win 5).blk t).view.set ↔ ∀ a : Fin 4, win0_5.index t a * S1x128x8x512.size a ≤ (i a).val
      ∧ (i a).val < win0_5.index t a * S1x128x8x512.size a + S1x128x8x512.size a := by
  show i ∈ ((View.whole main_v25).slice (win0_5.rect t)).set ↔ _
  rw [View.set_slice_whole, Rect.mem_set_unit]
  exact Iff.rfl

/-- The blocks fill the output array: index (b, i, f, j) is in the block of batch b and row block i / 128. -/
theorem covered (i : S16x512x8x512.Idx) :
    ∃ t : Fin cfg0.N, (cfg0.win 5).flush t = true ∧ i ∈ ((cfg0.win 5).blk t).view.set := by
  have hi0 : (i 0).val < 16 := (i 0).isLt
  have hi1 : (i 1).val < 512 := (i 1).isLt
  have hi2 : (i 2).val < 8 := (i 2).isLt
  have hi3 : (i 3).val < 512 := (i 3).isLt
  obtain ⟨t, ht⟩ := idx_onto ⟨(i 0).val, hi0⟩ ⟨(i 1).val / 128, by omega⟩
  have q0 : win0_5.index t (0 : Fin 4) = (i 0).val := congrFun ht 0
  have q1 : win0_5.index t (1 : Fin 4) = (i 1).val / 128 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 8 ≤ (i 2).val ∧ (i 2).val < win0_5.index t (2 : Fin 4) * 8 + 8; omega
  | ⟨3, _⟩ => show win0_5.index t (3 : Fin 4) * 512 ≤ (i 3).val ∧ (i 3).val < win0_5.index t (3 : Fin 4) * 512 + 512; omega

/-- The output array after the region is the table [b, i, f, j] of the arrays the region finds. -/
theorem final (c : Dev nD) :
    (dats m 0 c).arrAt 5 cfg0.N = tableT (V m c main_v11) (V m c main_v22) (V m c main_v21) :=
  (dats m 0 c).arrAt_eq_of_cover 5 (tableT (V m c main_v11) (V m c main_v22) (V m c main_v21))
    (fun t _ => flushed_eq m c t) covered

end Cert.KernelIdeal.Blocks

end
-- ==== Proof.Result.lean ====
/-
  The kernel program's result, from what its one region leaves.

  The region writes the table of edge features with the column node along the last axis, [b, i, f, j]. The one host
  operation after the region exchanges the last two axes, which turns that layout into [b, i, j, f]; no operation after
  the region writes an argument array. So if the region's output array ends as the table in the first layout, the
  program's result is the table in the second, and every argument array ends as launched.
-/
import proofs.«158982_j83279415869557_2_alg».proof.Proof.Spec
import proofs.«158982_j83279415869557_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Result
open Cert.KernelIdeal Cert.KernelIdeal.Gen Idealize.ShloMosaic Idealize.ShloMosaic.TcCoe Idealize.SL.Sem
open Idealize.ShloMosaic.ValueIdx Cert.EdgeSpec
variable (m : (ℓ : Loc nD τ sig) → Buf (Elt Ideal) ℓ) (ρ : Dev nD → PrngReg)

/-- The table with the node axis last, transposed on its last two axes, is the table. -/
theorem transpose_tableT (xc : S16x512x3.Idx → EReal) (P : S16x512x3x3.Idx → EReal) (he : S16x512x2.Idx → EReal) :
    transpose S16x512x512x8 [0, 1, 3, 2] (tableT xc P he) transposes_S16x512x8x512_S16x512x512x8_0_1_3_2 = table xc P he := by
  funext q
  obtain ⟨b, i, j, f, rfl⟩ : ∃ (b : Fin 16) (i j : Fin 512) (f : Fin 8), q = ix4 b i j f :=
    ⟨q 0, q 1, q 2, q 3, eq_ix4 q⟩
  -- entry (b, i, j, f) of the transpose is entry (b, i, f, j) of its operand
  refine (transpose_apply [0, 1, 3, 2] (tableT xc P he) transposes_S16x512x8x512_S16x512x512x8_0_1_3_2 (ix4 b i j f)
    (ix4 b i f j) (fun a => by match a with | ⟨0, _⟩ => rfl | ⟨1, _⟩ => rfl | ⟨2, _⟩ => rfl | ⟨3, _⟩ => rfl)).trans ?_
  rfl

/-- If the region's output array ends as the table with the node axis last, the array the one host operation after the
    region writes — that array with its last two axes exchanged — is the table. -/
theorem result_of_final (c : Dev nD)
    (hfinal : (dats m 0 c).arrAt 5 cfg0.N = tableT (V m c main_v11) (V m c main_v22) (V m c main_v21)) :
    Pipeline.afterTail₀ cfgs (dats m) 0 (V0 m) [hostOps1] c main_v26
      = table (V m c main_v11) (V m c main_v22) (V m c main_v21) := by
  unfold Pipeline.afterTail₀
  show StableHlo.after hostOps1 _ (Proc.devRef .tc main_v26) = _
  after_results
  -- the region's output array is window 5's, which ends as the proof data's last contents of that window
  have e : Pipeline.withArrays (cfgs 0).spec c (V0 m c) (fun w => (dats m 0 c).arrAt w (cfgs 0).N) (Proc.devRef .tc main_v25)
      = tableT (V m c main_v11) (V m c main_v22) (V m c main_v21) :=
    (Pipeline.withArrays_arr spec0 launch0.win.arr_inj c _ _ 5).trans hfinal
  exact (congrArg (fun x => transpose S16x512x512x8 [0, 1, 3, 2] x transposes_S16x512x8x512_S16x512x512x8_0_1_3_2) e).trans
    (transpose_tableT _ _ _)

/-- The program's run from the region's output: every execution ends with the result array at the table and every
    argument array as launched — the result is no window's array and no later operation writes an argument. -/
theorem run_of_final
    (hfinal : ∀ c : Dev nD, (dats m 0 c).arrAt 5 cfg0.N = tableT (V m c main_v11) (V m c main_v22) (V m c main_v21)) :
    θ_run defs (onTc (τ := τ) (main (F := Ideal))) ⟨m, fun _ => 0, ρ⟩ fun r => ∀ c : Dev nD,
      r.2.mem ((c.tc : Thread nD τ).loc main_v26) = table (V m c main_v11) (V m c main_v22) (V m c main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v26 (Pipeline.mem_restRefs_of main_v26 (by decide) (by decide))).trans (result_of_final m c (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.RefTable.lean ====
/-
  The reference program's result, read at an index, is the table of edge features.

  The program forms the difference d[b, i, j, k] = xc[b, i, k] − xc[b, j, k] of the centred coordinates by two
  broadcasts, sums its squares over k, divides it by √(r + ε) + 1, contracts it with the frame of the row node over k,
  broadcasts the embedding of the row node along j and that of the column node along i, and joins the four arrays along
  the last axis, whose extents are 1, 3, 2, 2. Each stage is read here at explicit coordinates (b, i, j and the last
  one), and the joined array at each of the eight positions of its last axis.
-/
import proofs.«158982_j83279415869557_2_alg».proof.Proof.Spec
import proofs.«158982_j83279415869557_2_alg».proof.Proof.Gen.ReferenceIdeal.Read
import Idealize.ShloMosaic.Lib.Pipeline.Value
import Idealize.ShloMosaic.Lib.ValueIdx

noncomputable section

namespace Cert.ReferenceIdeal.RefTable
open Cert.ReferenceIdeal Cert.ReferenceIdeal.Read Idealize.ShloMosaic Idealize.ShloMosaic.ValueIdx Cert.EdgeSpec

section Stages

variable (x0 : (⟨S16x512x3, .f32⟩ : BufTy).Contents (Elt Ideal)) (x1 : (⟨S8192x7, .f32⟩ : BufTy).Contents (Elt Ideal))
  (x2 : (⟨S8192x3x3, .f32⟩ : BufTy).Contents (Elt Ideal)) (x3 : (⟨S16x512x1, .f32⟩ : BufTy).Contents (Elt Ideal))
  (x4 : (⟨S7x64, .f32⟩ : BufTy).Contents (Elt Ideal)) (x5 : (⟨S64, .f32⟩ : BufTy).Contents (Elt Ideal))
  (x6 : (⟨S64x2, .f32⟩ : BufTy).Contents (Elt Ideal)) (x7 : (⟨S2, .f32⟩ : BufTy).Contents (Elt Ideal))

/-- Coordinate k of the difference of nodes i and j: the two broadcasts read the centred coordinates at (b, i, k)
    and at (b, j, k). -/
theorem diff_apply (b : Fin 16) (i j : Fin 512) (k : Fin 3) :
    val_main_v16 (F := Ideal) x0 x3 (ix4 b i j k)
      = val_main_v11 (F := Ideal) x0 x3 (ix3 b i k) - val_main_v11 (F := Ideal) x0 x3 (ix3 b j k) := by
  have e1 : idx_main_v12 (idx_main_v14 (ix4 b i j k)) = ix3 b i k :=
    funext fun a => Fin.ext (by match a with | ⟨0, _⟩ => rfl | ⟨1, _⟩ => rfl | ⟨2, _⟩ => rfl)
  have e2 : idx_main_v13 (idx_main_v15 (ix4 b i j k)) = ix3 b j k :=
    funext fun a => Fin.ext (by match a with | ⟨0, _⟩ => rfl | ⟨1, _⟩ => rfl | ⟨2, _⟩ => rfl)
  rw [val_main_v16_apply, val_main_v14_apply, val_main_v12_apply, val_main_v15_apply, val_main_v13_apply, e1, e2]
  rfl

/-- The squared distance of the edge (i, j): the sum from zero over the three coordinates of the squared difference. -/
theorem sq_apply (b : Fin 16) (i j : Fin 512) :
    val_main_v18 (F := Ideal) x0 x3 (ix3 b i j)
      = sqDist (fun k => val_main_v11 (F := Ideal) x0 x3 (ix3 b i k) - val_main_v11 (F := Ideal) x0 x3 (ix3 b j k)) := by
  have e : ∀ k : Fin 3, idx_main_v18 (ix3 b i j) k = ix4 b i j k := fun k =>
    funext fun a => Fin.ext (by match a with | ⟨0, _⟩ => rfl | ⟨1, _⟩ => rfl | ⟨2, _⟩ => rfl | ⟨3, _⟩ => rfl)
  rw [val_main_v18_apply, val_main_cst_1_apply]
  simp only [e, val_main_v17_apply, diff_apply]
  show Ideal.ofBits .f32 0x00000000#32 + _ = _
  rw [Ideal.ofBits_zero_f32, zero_add]
  rfl

/-- The normaliser of the edge (i, j): the root of the squared distance plus ε, plus one. -/
theorem den_apply (b : Fin 16) (i j : Fin 512) (z : Fin 1) :
    val_main_v24 (F := Ideal) x0 x3 (ix4 b i j z)
      = den (fun k => val_main_v11 (F := Ideal) x0 x3 (ix3 b i k) - val_main_v11 (F := Ideal) x0 x3 (ix3 b j k)) := by
  have e : idx_main_v19 (ix4 b i j z) = ix3 b i j :=
    funext fun a => Fin.ext (by match a with | ⟨0, _⟩ => rfl | ⟨1, _⟩ => rfl | ⟨2, _⟩ => rfl)
  rw [val_main_v24_apply, val_main_v22_apply, val_main_v21_apply, val_main_v19_apply, e, sq_apply,
    val_main_v20_apply, val_main_cst_2_apply, val_main_v23_apply, val_main_cst_3_apply]
  rfl

/-- Coordinate k of the normalised difference: the difference over the normaliser, which does not depend on k. -/
theorem unit_apply (b : Fin 16) (i j : Fin 512) (k : Fin 3) :
    val_main_v26 (F := Ideal) x0 x3 (ix4 b i j k)
      = Ideal.div (val_main_v11 (F := Ideal) x0 x3 (ix3 b i k) - val_main_v11 (F := Ideal) x0 x3 (ix3 b j k))
          (den (fun k => val_main_v11 (F := Ideal) x0 x3 (ix3 b i k) - val_main_v11 (F := Ideal) x0 x3 (ix3 b j k))) := by
  have e : idx_main_v25 (ix4 b i j k) = ix4 b i j (0 : Fin 1) :=
    funext fun a => Fin.ext (by match a with | ⟨0, _⟩ => rfl | ⟨1, _⟩ => rfl | ⟨2, _⟩ => rfl | ⟨3, _⟩ => rfl)
  rw [val_main_v26_apply, val_main_v25_apply, e, den_apply, diff_apply]
  rfl

/-- Row m of the frame of node i applied to the normalised difference: the contraction runs over the last axis of
    both operands, and a product of two extended reals does not depend on the order of its factors. -/
theorem frame_apply (b : Fin 16) (i j : Fin 512) (m : Fin 3) :
    val_main_v28 (F := Ideal) x0 x2 x3 (ix4 b i j m)
      = through (fun k => val_main_v27 (F := Ideal) x2 (ix4 b i m k))
          (fun k => val_main_v11 (F := Ideal) x0 x3 (ix3 b i k) - val_main_v11 (F := Ideal) x0 x3 (ix3 b j k)) := by
  have el : ∀ k : Fin 3, lidx_main_v28 (ix4 b i j m) k = ix4 b i j k := fun k =>
    funext fun a => Fin.ext (by match a with | ⟨0, _⟩ => rfl | ⟨1, _⟩ => rfl | ⟨2, _⟩ => rfl | ⟨3, _⟩ => rfl)
  have er : ∀ k : Fin 3, ridx_main_v28 (ix4 b i j m) k = ix4 b i m k := fun k =>
    funext fun a => Fin.ext (by match a with | ⟨0, _⟩ => rfl | ⟨1, _⟩ => rfl | ⟨2, _⟩ => rfl | ⟨3, _⟩ => rfl)
  rw [val_main_v28_apply, Fin.sum_univ_three]
  simp only [el, er, unit_apply]
  exact congrArg₂ (· + ·) (congrArg₂ (· + ·) (mul_comm _ _) (mul_comm _ _)) (mul_comm _ _)

/-- The embedding broadcast along j: entry (b, i, j, u) is the embedding of the row node i. -/
theorem row_apply (b : Fin 16) (i j : Fin 512) (u : Fin 2) :
    val_main_v40 (F := Ideal) x1 x4 x5 x6 x7 (ix4 b i j u) = val_main_v38 (F := Ideal) x1 x4 x5 x6 x7 (ix3 b i u) := by
  have e : idx_main_v39 (idx_main_v40 (ix4 b i j u)) = ix3 b i u :=
    funext fun a => Fin.ext (by match a with | ⟨0, _⟩ => rfl | ⟨1, _⟩ => rfl | ⟨2, _⟩ => rfl)
  rw [val_main_v40_apply, val_main_v39_apply, e]

/-- The embedding broadcast along i: entry (b, i, j, u) is the embedding of the column node j. -/
theorem col_apply (b : Fin 16) (i j : Fin 512) (u : Fin 2) :
    val_main_v42 (F := Ideal) x1 x4 x5 x6 x7 (ix4 b i j u) = val_main_v38 (F := Ideal) x1 x4 x5 x6 x7 (ix3 b j u) := by
  have e : idx_main_v41 (idx_main_v42 (ix4 b i j u)) = ix3 b j u :=
    funext fun a => Fin.ext (by match a with | ⟨0, _⟩ => rfl | ⟨1, _⟩ => rfl | ⟨2, _⟩ => rfl)
  rw [val_main_v42_apply, val_main_v41_apply, e]

/-! The joined array at a position f of its last axis: the four pieces span the positions 0, 1–3, 4–5 and 6–7, so
    position f falls in the piece that starts at pre ≤ f, at the position f − pre of that piece. -/

/-- Position 0 is the one position of the squared distance. -/
theorem cat_sq (b : Fin 16) (i j : Fin 512) (f : Fin 8) (z : Fin 1) (hf : 0 + z.val = f.val) :
    val_main_v43 (F := Ideal) x0 x1 x2 x3 x4 x5 x6 x7 (ix4 b i j f) = val_main_v19 (F := Ideal) x0 x3 (ix4 b i j z) := by
  unfold val_main_v43
  exact concatenate_apply_piece 3 _ _ (ix4 b i j f) 0 (by show (0 : Nat) < 4; decide) S16x512x512x1 (val_main_v19 (F := Ideal) x0 x3) rfl rfl
    0 rfl (ix4 b i j z)
    (fun a hne => by
      match a, hne with
      | ⟨0, _⟩, _ => rfl
      | ⟨1, _⟩, _ => rfl
      | ⟨2, _⟩, _ => rfl
      | ⟨3, _⟩, hne => exact absurd (Fin.ext rfl) hne) hf

/-- Positions 1–3 are the three rows of the frame, after the one position before them. -/
theorem cat_frame (b : Fin 16) (i j : Fin 512) (f : Fin 8) (m : Fin 3) (hf : 1 + m.val = f.val) :
    val_main_v43 (F := Ideal) x0 x1 x2 x3 x4 x5 x6 x7 (ix4 b i j f) = val_main_v28 (F := Ideal) x0 x2 x3 (ix4 b i j m) := by
  unfold val_main_v43
  exact concatenate_apply_piece 3 _ _ (ix4 b i j f) 1 (by show (1 : Nat) < 4; decide) S16x512x512x3 (val_main_v28 (F := Ideal) x0 x2 x3) rfl rfl
    1 rfl (ix4 b i j m)
    (fun a hne => by
      match a, hne with
      | ⟨0, _⟩, _ => rfl
      | ⟨1, _⟩, _ => rfl
      | ⟨2, _⟩, _ => rfl
      | ⟨3, _⟩, hne => exact absurd (Fin.ext rfl) hne) hf

/-- Positions 4, 5 are the embedding of the row node, after the four positions before them. -/
theorem cat_row (b : Fin 16) (i j : Fin 512) (f : Fin 8) (u : Fin 2) (hf : 4 + u.val = f.val) :
    val_main_v43 (F := Ideal) x0 x1 x2 x3 x4 x5 x6 x7 (ix4 b i j f)
      = val_main_v40 (F := Ideal) x1 x4 x5 x6 x7 (ix4 b i j u) := by
  unfold val_main_v43
  exact concatenate_apply_piece 3 _ _ (ix4 b i j f) 2 (by show (2 : Nat) < 4; decide) S16x512x512x2 (val_main_v40 (F := Ideal) x1 x4 x5 x6 x7) rfl rfl
    4 rfl (ix4 b i j u)
    (fun a hne => by
      match a, hne with
      | ⟨0, _⟩, _ => rfl
      | ⟨1, _⟩, _ => rfl
      | ⟨2, _⟩, _ => rfl
      | ⟨3, _⟩, hne => exact absurd (Fin.ext rfl) hne) hf

/-- Positions 6, 7 are the embedding of the column node, after the six positions before them. -/
theorem cat_col (b : Fin 16) (i j : Fin 512) (f : Fin 8) (u : Fin 2) (hf : 6 + u.val = f.val) :
    val_main_v43 (F := Ideal) x0 x1 x2 x3 x4 x5 x6 x7 (ix4 b i j f)
      = val_main_v42 (F := Ideal) x1 x4 x5 x6 x7 (ix4 b i j u) := by
  unfold val_main_v43
  exact concatenate_apply_piece 3 _ _ (ix4 b i j f) 3 (by show (3 : Nat) < 4; decide) S16x512x512x2 (val_main_v42 (F := Ideal) x1 x4 x5 x6 x7) rfl rfl
    6 rfl (ix4 b i j u)
    (fun a hne => by
      match a, hne with
      | ⟨0, _⟩, _ => rfl
      | ⟨1, _⟩, _ => rfl
      | ⟨2, _⟩, _ => rfl
      | ⟨3, _⟩, hne => exact absurd (Fin.ext rfl) hne) hf

/-- The squared distance, broadcast to a last axis of one position. -/
theorem sq1_apply (b : Fin 16) (i j : Fin 512) (z : Fin 1) :
    val_main_v19 (F := Ideal) x0 x3 (ix4 b i j z)
      = sqDist (fun k => val_main_v11 (F := Ideal) x0 x3 (ix3 b i k) - val_main_v11 (F := Ideal) x0 x3 (ix3 b j k)) := by
  have e : idx_main_v19 (ix4 b i j z) = ix3 b i j :=
    funext fun a => Fin.ext (by match a with | ⟨0, _⟩ => rfl | ⟨1, _⟩ => rfl | ⟨2, _⟩ => rfl)
  rw [val_main_v19_apply, e, sq_apply]

end Stages

/-- The reference's result is the table of edge features of the centred coordinates, the reshaped frames and the
    embedding, position by position of the last axis. -/
theorem ref_table (x0 : (⟨S16x512x3, .f32⟩ : BufTy).Contents (Elt Ideal)) (x1 : (⟨S8192x7, .f32⟩ : BufTy).Contents (Elt Ideal))
    (x2 : (⟨S8192x3x3, .f32⟩ : BufTy).Contents (Elt Ideal)) (x3 : (⟨S16x512x1, .f32⟩ : BufTy).Contents (Elt Ideal))
    (x4 : (⟨S7x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    val_main_v43 (F := Ideal) x0 x1 x2 x3 x4 x5 x6 x7
      = table (val_main_v11 (F := Ideal) x0 x3) (val_main_v27 (F := Ideal) x2) (val_main_v38 (F := Ideal) x1 x4 x5 x6 x7) := by
  funext q
  obtain ⟨b, i, j, f, rfl⟩ : ∃ (b : Fin 16) (i j : Fin 512) (f : Fin 8), q = ix4 b i j f :=
    ⟨q 0, q 1, q 2, q 3, eq_ix4 q⟩
  match f with
  | ⟨0, _⟩ => exact (cat_sq x0 x1 x2 x3 x4 x5 x6 x7 b i j _ 0 rfl).trans (sq1_apply x0 x3 b i j 0)
  | ⟨1, _⟩ => exact (cat_frame x0 x1 x2 x3 x4 x5 x6 x7 b i j _ 0 rfl).trans (frame_apply x0 x2 x3 b i j 0)
  | ⟨2, _⟩ => exact (cat_frame x0 x1 x2 x3 x4 x5 x6 x7 b i j _ 1 rfl).trans (frame_apply x0 x2 x3 b i j 1)
  | ⟨3, _⟩ => exact (cat_frame x0 x1 x2 x3 x4 x5 x6 x7 b i j _ 2 rfl).trans (frame_apply x0 x2 x3 b i j 2)
  | ⟨4, _⟩ => exact (cat_row x0 x1 x2 x3 x4 x5 x6 x7 b i j _ 0 rfl).trans (row_apply x1 x4 x5 x6 x7 b i j 0)
  | ⟨5, _⟩ => exact (cat_row x0 x1 x2 x3 x4 x5 x6 x7 b i j _ 1 rfl).trans (row_apply x1 x4 x5 x6 x7 b i j 1)
  | ⟨6, _⟩ => exact (cat_col x0 x1 x2 x3 x4 x5 x6 x7 b i j _ 0 rfl).trans (col_apply x1 x4 x5 x6 x7 b i j 0)
  | ⟨7, _⟩ => exact (cat_col x0 x1 x2 x3 x4 x5 x6 x7 b i j _ 1 rfl).trans (col_apply x1 x4 x5 x6 x7 b i j 1)
  | ⟨n + 8, h⟩ => exact absurd h (by omega)

end Cert.ReferenceIdeal.RefTable

end
-- ==== Proof.lean ====
/-
  The edge features of a fully connected point cloud: a kernel that builds the table [batch, node i, feature, node j]
  block by block and transposes it at the end, against a reference that builds [batch, node i, node j, feature]
  directly.

  Both programs first centre the coordinates and embed the node features by the same operations on the same
  arguments, so those two arrays are named once and never opened. For an edge (i, j) both then form the difference of
  the two nodes' centred coordinates, its squared length r, the difference divided by √(r + ε) + 1, that vector taken
  through the 3×3 frame of node i, and the two nodes' embeddings. The kernel adds the three products of a frame row
  left to right with the frame entry as the left factor; the reference contracts with the frame entry as the right
  factor. Products and sums of extended reals do not depend on the order of their terms, so the two tables agree entry by
  entry on all extended reals and the precondition is not used. The idealization rewrote nothing, so the kernel
  is its own idealization.
-/
import proofs.«158982_j83279415869557_2_alg».proof.Defs
import proofs.«158982_j83279415869557_2_alg».proof.Proof.Gen.Kernel
import proofs.«158982_j83279415869557_2_alg».proof.Proof.Gen.Kernel.Frame
import proofs.«158982_j83279415869557_2_alg».proof.Proof.Gen.KernelIdeal
import proofs.«158982_j83279415869557_2_alg».proof.Proof.Gen.KernelIdeal.Frame
import proofs.«158982_j83279415869557_2_alg».proof.Proof.Gen.ReferenceIdeal
import proofs.«158982_j83279415869557_2_alg».proof.Proof.Gen.Pre_finite_inputs
import proofs.«158982_j83279415869557_2_alg».proof.Proof.Gen.ReferenceIdeal.Run
import proofs.«158982_j83279415869557_2_alg».proof.Proof.Gen.ReferenceIdeal.Read
import proofs.«158982_j83279415869557_2_alg».proof.Proof.Spec
import proofs.«158982_j83279415869557_2_alg».proof.Proof.HostPrefix
import proofs.«158982_j83279415869557_2_alg».proof.Proof.Blocks
import proofs.«158982_j83279415869557_2_alg».proof.Proof.Result
import proofs.«158982_j83279415869557_2_alg».proof.Proof.RefTable

noncomputable section

namespace Cert.Proof

open Idealize.ShloMosaic Idealize.ShloMosaic.TcCoe Idealize.SL.Sem Cert.EdgeSpec

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the table of edge features of the centred coordinates, the reshaped frames and the
    embedding of the same arguments: the kernel's output array holds the table with the node j last, which the final
    transpose turns; the reference's joined array is the table read position by position. -/
theorem algebraic : Cert.algebraic_KernelIdeal_ReferenceIdeal := by
  intro m ρ m' ρ' _ hagree
  refine ⟨fun c => table (Cert.KernelIdeal.Gen.V m c Cert.KernelIdeal.main_v11)
    (Cert.KernelIdeal.Gen.V m c Cert.KernelIdeal.main_v22) (Cert.KernelIdeal.Gen.V m c Cert.KernelIdeal.main_v21),
    Cert.KernelIdeal.Result.run_of_final m ρ (Cert.KernelIdeal.Blocks.final m), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v43_eq, Cert.ReferenceIdeal.RefTable.ref_table, a0, a1, a2, a3, a4, a5, a6, a7]
  show _ = table (Cert.KernelIdeal.Gen.V m c Cert.KernelIdeal.main_v11)
    (Cert.KernelIdeal.Gen.V m c Cert.KernelIdeal.main_v22) (Cert.KernelIdeal.Gen.V m c Cert.KernelIdeal.main_v21)
  rw [Cert.KernelIdeal.Entry.xc_eq, Cert.KernelIdeal.Entry.pose_eq, Cert.KernelIdeal.Entry.he_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
